-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S2048x4 : Shape := ⟨2, ![2048, 4]⟩
abbrev S4x4096x1024 : Shape := ⟨3, ![4, 4096, 1024]⟩
abbrev S4x1024x2048 : Shape := ⟨3, ![4, 1024, 2048]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S2048x4 : S_.BroadcastsInDim S2048x4 (![] : Fin 0 → Fin S2048x4.rank)
  reducesTo_S2048x4_S_d0_1 : S2048x4.ReducesTo [0, 1] S_
  bcast_S_S4x4096x1024 : S_.BroadcastsInDim S4x4096x1024 (![] : Fin 0 → Fin S4x4096x1024.rank)
  reducesTo_S4x4096x1024_S_d0_1_2 : S4x4096x1024.ReducesTo [0, 1, 2] S_
  bcast_S_S4x1024x2048 : S_.BroadcastsInDim S4x1024x2048 (![] : Fin 0 → Fin S4x1024x2048.rank)
  reducesTo_S4x1024x2048_S_d0_1_2 : S4x1024x2048.ReducesTo [0, 1, 2] S_

variable [Facts]

def fn_part1 {F : FTy → Type} [FloatOps F] (main_v13 : IVec S_ 1) (main_v16 : IVec S4x1024x2048 1) : IVec S_ 1 :=
  let main_c_5 : IVec S_ 1 := constantI S_ 1 1#1
  let main_v17 : IVec S_ 1 := (fun x v => Host.reduce IntOp.andi x v reducesTo_S4x1024x2048_S_d0_1_2 h_S_) main_v16 main_c_5
  let main_v18 : IVec S_ 1 := andi main_v13 main_v17
  main_v18

def fn {F : FTy → Type} [FloatOps F] (main_arg0 : FVec F S2048x1024 .f32) (main_arg1 : IVec S2048x4 32) (main_arg2 : FVec F S2048x4 .f32) (main_arg3 : FVec F S4x4096x1024 .f32) (main_arg4 : FVec F S4x1024x2048 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S2048x4 .f32 := Host.absf main_arg2
  let main_cst_0 : FVec F S_ .f32 := constant S_ .f32 0x7F800000#32
  let main_v5 : FVec F S2048x4 .f32 := broadcastInDim S2048x4 ![] bcast_S_S2048x4 main_cst_0
  let main_v6 : IVec S2048x4 1 := cmpf .olt main_v4 main_v5
  let main_c_1 : IVec S_ 1 := constantI S_ 1 1#1
  let main_v7 : IVec S_ 1 := (fun x v => Host.reduce IntOp.andi x v reducesTo_S2048x4_S_d0_1 h_S_) main_v6 main_c_1
  let main_v8 : IVec S_ 1 := andi main_v3 main_v7
  let main_v9 : FVec F S4x4096x1024 .f32 := Host.absf main_arg3
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S4x1024x2048 .f32 := Host.absf main_arg4
  let main_cst_4 : FVec F S_ .f32 := constant S_ .f32 0x7F800000#32
  let main_v15 : FVec F S4x1024x2048 .f32 := broadcastInDim S4x1024x2048 ![] bcast_S_S4x1024x2048 main_cst_4
  let main_v16 : IVec S4x1024x2048 1 := cmpf .olt main_v14 main_v15
  fn_part1 (F := F) main_v13 main_v16
-- ==== Kernel.lean ====
abbrev S2048x1024 : Shape := ⟨2, ![2048, 1024]⟩
abbrev S2048x4 : Shape := ⟨2, ![2048, 4]⟩
abbrev S4x4096x1024 : Shape := ⟨3, ![4, 4096, 1024]⟩
abbrev S4x1024x2048 : Shape := ⟨3, ![4, 1024, 2048]⟩
abbrev S4 : Shape := ⟨1, ![4]⟩
abbrev S2048x4x1 : Shape := ⟨3, ![2048, 4, 1]⟩
abbrev S1x1x4 : Shape := ⟨3, ![1, 1, 4]⟩
abbrev S2048x4x4 : Shape := ⟨3, ![2048, 4, 4]⟩
abbrev S_ : Shape := ⟨0, ![]⟩
abbrev S4x2048 : Shape := ⟨2, ![4, 2048]⟩
abbrev S4x2048x1 : Shape := ⟨3, ![4, 2048, 1]⟩
abbrev S4x1024x4096 : Shape := ⟨3, ![4, 1024, 4096]⟩
abbrev S4x2048x1024 : Shape := ⟨3, ![4, 2048, 1024]⟩
abbrev S1x1024x4096 : Shape := ⟨3, ![1, 1024, 4096]⟩
abbrev S1x2048x1024 : Shape := ⟨3, ![1, 2048, 1024]⟩
abbrev S1x2048x1 : Shape := ⟨3, ![1, 2048, 1]⟩
abbrev S128x1024 : Shape := ⟨2, ![128, 1024]⟩
abbrev S1024x4096 : Shape := ⟨2, ![1024, 4096]⟩
abbrev S128x4096 : Shape := ⟨2, ![128, 4096]⟩
abbrev S128x2048 : Shape := ⟨2, ![128, 2048]⟩
abbrev S1x128x1 : Shape := ⟨3, ![1, 128, 1]⟩
abbrev S128x1 : Shape := ⟨2, ![128, 1]⟩

abbrev nBuf : Space → Nat
  | .hbm => 27
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4, .i32⟩
  | .hbm, ⟨2, _⟩ => ⟨S2048x4, .f32⟩
  | .hbm, ⟨3, _⟩ => ⟨S4x4096x1024, .f32⟩
  | .hbm, ⟨4, _⟩ => ⟨S4x1024x2048, .f32⟩
  | .hbm, ⟨5, _⟩ => ⟨S4, .i32⟩
  | .hbm, ⟨6, _⟩ => ⟨S2048x4x1, .i32⟩
  | .hbm, ⟨7, _⟩ => ⟨S1x1x4, .i32⟩
  | .hbm, ⟨8, _⟩ => ⟨S2048x4x4, .i32⟩
  | .hbm, ⟨9, _⟩ => ⟨S2048x4x4, .i32⟩
  | .hbm, ⟨10, _⟩ => ⟨S2048x4x4, .i1⟩
  | .hbm, ⟨11, _⟩ => ⟨S2048x4x1, .f32⟩
  | .hbm, ⟨12, _⟩ => ⟨S_, .f32⟩
  | .hbm, ⟨13, _⟩ => ⟨S_, .f32⟩
  | .hbm, ⟨14, _⟩ => ⟨S2048x4x4, .f32⟩
  | .hbm, ⟨15, _⟩ => ⟨S2048x4x4, .f32⟩
  | .hbm, ⟨16, _⟩ => ⟨S2048x4x4, .f32⟩
  | .hbm, ⟨17, _⟩ => ⟨S_, .f32⟩
  | .hbm, ⟨18, _⟩ => ⟨S2048x4, .f32⟩
  | .hbm, ⟨19, _⟩ => ⟨S4x2048, .f32⟩
  | .hbm, ⟨20, _⟩ => ⟨S4x2048x1, .f32⟩
  | .hbm, ⟨21, _⟩ => ⟨S2048x1024, .bf16⟩
  | .hbm, ⟨22, _⟩ => ⟨S4x1024x4096, .f32⟩
  | .hbm, ⟨23, _⟩ => ⟨S4x1024x4096, .bf16⟩
  | .hbm, ⟨24, _⟩ => ⟨S4x2048x1024, .f32⟩
  | .hbm, ⟨25, _⟩ => ⟨S4x2048x1024, .bf16⟩
  | .hbm, ⟨26, _⟩ => ⟨S2048x1024, .f32⟩
  | .local _ .vmem, ⟨0, _⟩ => ⟨S2048x1024, .bf16⟩
  | .local _ .vmem, ⟨1, _⟩ => ⟨S1x1024x4096, .bf16⟩
  | .local _ .vmem, ⟨2, _⟩ => ⟨S1x2048x1024, .bf16⟩
  | .local _ .vmem, ⟨3, _⟩ => ⟨S1x2048x1, .f32⟩
  | .local _ .vmem, ⟨4, _⟩ => ⟨S2048x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v4 : BitVec 32 := Scalar.muli arg6 c1_i32_3
  let v5 : BitVec 32 := Scalar.addi c0_i32_4 v4
  let c128_i32 : BitVec 32 := 128#32
  let v6 : BitVec 32 := Scalar.muli v5 c128_i32
  v6
def k0_off1 (k0_t1 : Fin k0_t1_loop.trips) : Fin 2 → Nat :=
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v4 : BitVec 32 := Scalar.muli arg6 c1_i32_3
  let v5 : BitVec 32 := Scalar.addi c0_i32_4 v4
  let c128_i32 : BitVec 32 := 128#32
  let v6 : BitVec 32 := Scalar.muli v5 c128_i32
  let v7 : BitVec 32 := v6
  let v8 : Index := Scalar.indexCast v7
  let c0 : Index := 0#32
  ![v8.toNat, 0]
def k0_off2 (k0_t1 : Fin k0_t1_loop.trips) : Fin 3 → Nat :=
  let c0_12 : Index := 0#32
  let c0_i32_4 : BitVec 32 := 0#32
  let c0_i32_1 : BitVec 32 := 0#32
  let c1_i32 : BitVec 32 := 1#32
  let arg6 : BitVec 32 := Scf.iv c0_i32_1 c1_i32 k0_t1
  let c1_i32_3 : BitVec 32 := 1#32
  let v4 : BitVec 32 := Scalar.muli arg6 c1_i32_3
  let v5 : BitVec 32 := Scalar.addi c0_i32_4 v4
  let c128_i32 : BitVec 32 := 128#32
  let v6 : BitVec 32 := Scalar.muli v5 c128_i32
  let v7 : BitVec 32 := v6
  let v23 : Index := Scalar.indexCast v7
  let c0_13 : Index := 0#32
  ![0, v23.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  bcast_S2048x4_S2048x4x1_0_1 : S2048x4.BroadcastsInDim S2048x4x1 (![0, 1] : Fin 2 → Fin S2048x4x1.rank)
  bcast_S4_S1x1x4_2 : S4.BroadcastsInDim S1x1x4 (![2] : Fin 1 → Fin S1x1x4.rank)
  bcast_S2048x4x1_S2048x4x4_0_1_2 : S2048x4x1.BroadcastsInDim S2048x4x4 (![0, 1, 2] : Fin 3 → Fin S2048x4x4.rank)
  bcast_S1x1x4_S2048x4x4_0_1_2 : S1x1x4.BroadcastsInDim S2048x4x4 (![0, 1, 2] : Fin 3 → Fin S2048x4x4.rank)
  bcast_S_S2048x4x4 : S_.BroadcastsInDim S2048x4x4 (![] : Fin 0 → Fin S2048x4x4.rank)
  reducesTo_S2048x4x4_S2048x4_d1 : S2048x4x4.ReducesTo [1] S2048x4
  h_S_ : 0 < S_.numel
  transposes_S2048x4_S4x2048_1_0 : S2048x4.Transposes [1, 0] S4x2048
  bcast_S4x2048_S4x2048x1_0_1 : S4x2048.BroadcastsInDim S4x2048x1 (![0, 1] : Fin 2 → Fin S4x2048x1.rank)
  bitsLt_bf16_f32 : FTy.bits .bf16 < FTy.bits .f32
  transposes_S4x4096x1024_S4x1024x4096_0_2_1 : S4x4096x1024.Transposes [0, 2, 1] S4x1024x4096
  transposes_S4x1024x2048_S4x2048x1024_0_2_1 : S4x1024x2048.Transposes [0, 2, 1] S4x2048x1024
  inb_S2048x1024_S2048x1024_0_0 : ∀ a, (![0, 0] : Fin 2 → Nat) a + S2048x1024.size a ≤ S2048x1024.size a
  h_S2048x1024 : 0 < S2048x1024.numel
  h_S128x1024 : 0 < S128x1024.numel
  shapeCasts_S128x1024_S128x1024 : S128x1024.ShapeCasts S128x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  slices_S128x4096_o0_0_S128x2048 : S128x4096.Slices ![0, 0] S128x2048
  slices_S128x4096_o0_2048_S128x2048 : S128x4096.Slices ![0, 2048] S128x2048
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  h_S1x128x1 : 0 < S1x128x1.numel
  shapeCasts_S1x128x1_S128x1 : S1x128x1.ShapeCasts S128x1
  broadcasts_S128x1_S128x1024 : S128x1.Broadcasts S128x1024
  dot_S128x1024_S1024x4096_S128x4096_1_0_0_1_n_n_wf : DotDims.WF S128x1024 S1024x4096 S128x4096 [1] [0] [0] [1] [] []
  dot_S128x2048_S2048x1024_S128x1024_1_0_0_1_n_n_wf : DotDims.WF S128x2048 S2048x1024 S128x1024 [1] [0] [0] [1] [] []
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x1024.size a ≤ S2048x1024.size a
  k0_off2_inb : ∀ k0_t1 : Fin k0_t1_loop.trips, ∀ a, (k0_off2 k0_t1) a + S1x128x1.size a ≤ S1x2048x1.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S2048x1024.size a
  hwx0_0 : ∀ i : grid0.Coords, EltTy.bits .bf16 = 32 ∨ (Rect.block (s := S2048x1024) S2048x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S4x1024x4096.size a
  hwx0_1 : ∀ i : grid0.Coords, EltTy.bits .bf16 = 32 ∨ (Rect.block (s := S4x1024x4096) S1x1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1024.size a ≤ S4x2048x1024.size a
  hwx0_2 : ∀ i : grid0.Coords, EltTy.bits .bf16 = 32 ∨ (Rect.block (s := S4x2048x1024) S1x2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048x1.size a ≤ S4x2048x1.size a
  hwx0_3 : ∀ i : grid0.Coords, EltTy.bits .f32 = 32 ∨ (Rect.block (s := S4x2048x1) S1x2048x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x1024.size a
  hwx0_4 : ∀ i : grid0.Coords, EltTy.bits .f32 = 32 ∨ (Rect.block (s := S2048x1024) S2048x1024.size (cc0_transform_4 i) (hinb0_4 i)).WholeWords (EltTy.packing .f32)

variable [Facts₀]

def dot_S128x1024_S1024x4096_S128x4096_1_0_0_1_n_n : DotDims S128x1024 S1024x4096 S128x4096 where
  lhsContracting := [1]
  rhsContracting := [0]
  lhsNonContracting := [0]
  rhsNonContracting := [1]
  lhsBatch := []
  rhsBatch := []
  wf := dot_S128x1024_S1024x4096_S128x4096_1_0_0_1_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_v10) S2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S2048x1024.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x1024 : Shape := ⟨2, ![2048, 1024]⟩
abbrev S2048x4 : Shape := ⟨2, ![2048, 4]⟩
abbrev S4x4096x1024 : Shape := ⟨3, ![4, 4096, 1024]⟩
abbrev S4x1024x2048 : Shape := ⟨3, ![4, 1024, 2048]⟩
abbrev S_ : Shape := ⟨0, ![]⟩
abbrev S2048 : Shape := ⟨1, ![2048]⟩
abbrev S1x4096x1024 : Shape := ⟨3, ![1, 4096, 1024]⟩
abbrev S4096x1024 : Shape := ⟨2, ![4096, 1024]⟩
abbrev S1024x4096 : Shape := ⟨2, ![1024, 4096]⟩
abbrev S2048x4096 : Shape := ⟨2, ![2048, 4096]⟩
abbrev S2048x2048 : Shape := ⟨2, ![2048, 2048]⟩
abbrev S1x1024x2048 : Shape := ⟨3, ![1, 1024, 2048]⟩
abbrev S1024x2048 : Shape := ⟨2, ![1024, 2048]⟩
abbrev S2048x1 : Shape := ⟨2, ![2048, 1]⟩

abbrev nBuf : Space → Nat
  | .hbm => 131
  | .vmem => 0
  | .smem => 0
  | _ => 0

abbrev hbmTy0_0 (i : Nat) : BufTy := match i % 128 with
  | 0 => ⟨S2048x1024, .f32⟩
  | 1 => ⟨S2048x4, .i32⟩
  | 2 => ⟨S2048x4, .f32⟩
  | 3 => ⟨S4x4096x1024, .f32⟩
  | 4 => ⟨S4x1024x2048, .f32⟩
  | 5 => ⟨S_, .f32⟩
  | 6 => ⟨S2048x1024, .f32⟩
  | 7 => ⟨S_, .i32⟩
  | 8 => ⟨S2048x4, .i32⟩
  | 9 => ⟨S2048x4, .i1⟩
  | 10 => ⟨S2048x4, .f32⟩
  | 11 => ⟨S2048x4, .f32⟩
  | 12 => ⟨S_, .f32⟩
  | 13 => ⟨S2048, .f32⟩
  | 14 => ⟨S1x4096x1024, .f32⟩
  | 15 => ⟨S4096x1024, .f32⟩
  | 16 => ⟨S1024x4096, .f32⟩
  | 17 => ⟨S2048x4096, .f32⟩
  | 18 => ⟨S2048x2048, .f32⟩
  | 19 => ⟨S2048x2048, .f32⟩
  | 20 => ⟨S2048x2048, .f32⟩
  | 21 => ⟨S2048x2048, .f32⟩
  | 22 => ⟨S_, .f32⟩
  | 23 => ⟨S2048x2048, .f32⟩
  | 24 => ⟨S2048x2048, .f32⟩
  | 25 => ⟨S_, .f32⟩
  | 26 => ⟨S2048x2048, .f32⟩
  | 27 => ⟨S2048x2048, .f32⟩
  | 28 => ⟨S2048x2048, .f32⟩
  | 29 => ⟨S2048x2048, .f32⟩
  | 30 => ⟨S1x1024x2048, .f32⟩
  | 31 => ⟨S1024x2048, .f32⟩
  | 32 => ⟨S2048x1024, .f32⟩
  | 33 => ⟨S2048x1024, .f32⟩
  | 34 => ⟨S2048x1, .f32⟩
  | 35 => ⟨S2048x1024, .f32⟩
  | 36 => ⟨S2048x1024, .f32⟩
  | 37 => ⟨S2048x1024, .f32⟩
  | 38 => ⟨S_, .i32⟩
  | 39 => ⟨S2048x4, .i32⟩
  | 40 => ⟨S2048x4, .i1⟩
  | 41 => ⟨S2048x4, .f32⟩
  | 42 => ⟨S2048x4, .f32⟩
  | 43 => ⟨S_, .f32⟩
  | 44 => ⟨S2048, .f32⟩
  | 45 => ⟨S1x4096x1024, .f32⟩
  | 46 => ⟨S4096x1024, .f32⟩
  | 47 => ⟨S1024x4096, .f32⟩
  | 48 => ⟨S2048x4096, .f32⟩
  | 49 => ⟨S2048x2048, .f32⟩
  | 50 => ⟨S2048x2048, .f32⟩
  | 51 => ⟨S2048x2048, .f32⟩
  | 52 => ⟨S2048x2048, .f32⟩
  | 53 => ⟨S_, .f32⟩
  | 54 => ⟨S2048x2048, .f32⟩
  | 55 => ⟨S2048x2048, .f32⟩
  | 56 => ⟨S_, .f32⟩
  | 57 => ⟨S2048x2048, .f32⟩
  | 58 => ⟨S2048x2048, .f32⟩
  | 59 => ⟨S2048x2048, .f32⟩
  | 60 => ⟨S2048x2048, .f32⟩
  | 61 => ⟨S1x1024x2048, .f32⟩
  | 62 => ⟨S1024x2048, .f32⟩
  | 63 => ⟨S2048x1024, .f32⟩
  | 64 => ⟨S2048x1024, .f32⟩
  | 65 => ⟨S2048x1, .f32⟩
  | 66 => ⟨S2048x1024, .f32⟩
  | 67 => ⟨S2048x1024, .f32⟩
  | 68 => ⟨S2048x1024, .f32⟩
  | 69 => ⟨S_, .i32⟩
  | 70 => ⟨S2048x4, .i32⟩
  | 71 => ⟨S2048x4, .i1⟩
  | 72 => ⟨S2048x4, .f32⟩
  | 73 => ⟨S2048x4, .f32⟩
  | 74 => ⟨S_, .f32⟩
  | 75 => ⟨S2048, .f32⟩
  | 76 => ⟨S1x4096x1024, .f32⟩
  | 77 => ⟨S4096x1024, .f32⟩
  | 78 => ⟨S1024x4096, .f32⟩
  | 79 => ⟨S2048x4096, .f32⟩
  | 80 => ⟨S2048x2048, .f32⟩
  | 81 => ⟨S2048x2048, .f32⟩
  | 82 => ⟨S2048x2048, .f32⟩
  | 83 => ⟨S2048x2048, .f32⟩
  | 84 => ⟨S_, .f32⟩
  | 85 => ⟨S2048x2048, .f32⟩
  | 86 => ⟨S2048x2048, .f32⟩
  | 87 => ⟨S_, .f32⟩
  | 88 => ⟨S2048x2048, .f32⟩
  | 89 => ⟨S2048x2048, .f32⟩
  | 90 => ⟨S2048x2048, .f32⟩
  | 91 => ⟨S2048x2048, .f32⟩
  | 92 => ⟨S1x1024x2048, .f32⟩
  | 93 => ⟨S1024x2048, .f32⟩
  | 94 => ⟨S2048x1024, .f32⟩
  | 95 => ⟨S2048x1024, .f32⟩
  | 96 => ⟨S2048x1, .f32⟩
  | 97 => ⟨S2048x1024, .f32⟩
  | 98 => ⟨S2048x1024, .f32⟩
  | 99 => ⟨S2048x1024, .f32⟩
  | 100 => ⟨S_, .i32⟩
  | 101 => ⟨S2048x4, .i32⟩
  | 102 => ⟨S2048x4, .i1⟩
  | 103 => ⟨S2048x4, .f32⟩
  | 104 => ⟨S2048x4, .f32⟩
  | 105 => ⟨S_, .f32⟩
  | 106 => ⟨S2048, .f32⟩
  | 107 => ⟨S1x4096x1024, .f32⟩
  | 108 => ⟨S4096x1024, .f32⟩
  | 109 => ⟨S1024x4096, .f32⟩
  | 110 => ⟨S2048x4096, .f32⟩
  | 111 => ⟨S2048x2048, .f32⟩
  | 112 => ⟨S2048x2048, .f32⟩
  | 113 => ⟨S2048x2048, .f32⟩
  | 114 => ⟨S2048x2048, .f32⟩
  | 115 => ⟨S_, .f32⟩
  | 116 => ⟨S2048x2048, .f32⟩
  | 117 => ⟨S2048x2048, .f32⟩
  | 118 => ⟨S_, .f32⟩
  | 119 => ⟨S2048x2048, .f32⟩
  | 120 => ⟨S2048x2048, .f32⟩
  | 121 => ⟨S2048x2048, .f32⟩
  | 122 => ⟨S2048x2048, .f32⟩
  | 123 => ⟨S1x1024x2048, .f32⟩
  | 124 => ⟨S1024x2048, .f32⟩
  | 125 => ⟨S2048x1024, .f32⟩
  | 126 => ⟨S2048x1024, .f32⟩
  | 127 => ⟨S2048x1, .f32⟩
  | _ => ⟨S2048x1024, .f32⟩

abbrev hbmTy0_1 (i : Nat) : BufTy := match i % 128 with
  | 0 => ⟨S2048x1024, .f32⟩
  | 1 => ⟨S2048x1024, .f32⟩
  | 2 => ⟨S2048x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_c_3 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call2_v0 : Ref sig .tc := ⟨.hbm, 82, rfl⟩
abbrev main_call2_v1 : Ref sig .tc := ⟨.hbm, 83, rfl⟩
abbrev main_call2_cst : Ref sig .tc := ⟨.hbm, 84, rfl⟩
abbrev main_call2_v2 : Ref sig .tc := ⟨.hbm, 85, rfl⟩
abbrev main_call2_v3 : Ref sig .tc := ⟨.hbm, 86, rfl⟩
abbrev main_call2_cst_0 : Ref sig .tc := ⟨.hbm, 87, rfl⟩
abbrev main_call2_v4 : Ref sig .tc := ⟨.hbm, 88, rfl⟩
abbrev main_call2_v5 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_c_5 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_6 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_call3_v0 : Ref sig .tc := ⟨.hbm, 113, rfl⟩
abbrev main_call3_v1 : Ref sig .tc := ⟨.hbm, 114, rfl⟩
abbrev main_call3_cst : Ref sig .tc := ⟨.hbm, 115, rfl⟩
abbrev main_call3_v2 : Ref sig .tc := ⟨.hbm, 116, rfl⟩
abbrev main_call3_v3 : Ref sig .tc := ⟨.hbm, 117, rfl⟩
abbrev main_call3_cst_0 : Ref sig .tc := ⟨.hbm, 118, rfl⟩
abbrev main_call3_v4 : Ref sig .tc := ⟨.hbm, 119, rfl⟩
abbrev main_call3_v5 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩

abbrev nD : Nat := 1
abbrev τ : Topo := Topo.v7x

variable {F : FTy → Type} [FloatOps F]

class Facts₀ : Prop where
  bcast_S_S2048x1024 : S_.BroadcastsInDim S2048x1024 (![] : Fin 0 → Fin S2048x1024.rank)
  bcast_S_S2048x4 : S_.BroadcastsInDim S2048x4 (![] : Fin 0 → Fin S2048x4.rank)
  reducesTo_S2048x4_S2048_d1 : S2048x4.ReducesTo [1] S2048
  h_S_ : 0 < S_.numel
  slices_S4x4096x1024_S1x4096x1024_0_0_0 : S4x4096x1024.Slices ![0, 0, 0] S1x4096x1024
  shapeCasts_S1x4096x1024_S4096x1024 : S1x4096x1024.ShapeCasts S4096x1024
  transposes_S4096x1024_S1024x4096_1_0 : S4096x1024.Transposes [1, 0] S1024x4096
  slices_S2048x4096_S2048x2048_0_0 : S2048x4096.Slices ![0, 0] S2048x2048
  slices_S2048x4096_S2048x2048_0_2048 : S2048x4096.Slices ![0, 2048] S2048x2048
  bcast_S_S2048x2048 : S_.BroadcastsInDim S2048x2048 (![] : Fin 0 → Fin S2048x2048.rank)
  slices_S4x1024x2048_S1x1024x2048_0_0_0 : S4x1024x2048.Slices ![0, 0, 0] S1x1024x2048
  shapeCasts_S1x1024x2048_S1024x2048 : S1x1024x2048.ShapeCasts S1024x2048
  transposes_S1024x2048_S2048x1024_1_0 : S1024x2048.Transposes [1, 0] S2048x1024
  bcast_S2048_S2048x1_0 : S2048.BroadcastsInDim S2048x1 (![0] : Fin 1 → Fin S2048x1.rank)
  bcast_S2048x1_S2048x1024_0_1 : S2048x1.BroadcastsInDim S2048x1024 (![0, 1] : Fin 2 → Fin S2048x1024.rank)
  slices_S4x4096x1024_S1x4096x1024_1_0_0 : S4x4096x1024.Slices ![1, 0, 0] S1x4096x1024
  slices_S4x1024x2048_S1x1024x2048_1_0_0 : S4x1024x2048.Slices ![1, 0, 0] S1x1024x2048
  slices_S4x4096x1024_S1x4096x1024_2_0_0 : S4x4096x1024.Slices ![2, 0, 0] S1x4096x1024
  slices_S4x1024x2048_S1x1024x2048_2_0_0 : S4x1024x2048.Slices ![2, 0, 0] S1x1024x2048
  slices_S4x4096x1024_S1x4096x1024_3_0_0 : S4x4096x1024.Slices ![3, 0, 0] S1x4096x1024
  slices_S4x1024x2048_S1x1024x2048_3_0_0 : S4x1024x2048.Slices ![3, 0, 0] S1x1024x2048
  dot_S2048x1024_S1024x4096_S2048x4096_1_0_0_1_n_n_wf : DotDims.WF S2048x1024 S1024x4096 S2048x4096 [1] [0] [0] [1] [] []
  dot_S2048x2048_S2048x1024_S2048x1024_1_0_0_1_n_n_wf : DotDims.WF S2048x2048 S2048x1024 S2048x1024 [1] [0] [0] [1] [] []

variable [Facts₀]

def dot_S2048x1024_S1024x4096_S2048x4096_1_0_0_1_n_n : DotDims S2048x1024 S1024x4096 S2048x4096 where
  lhsContracting := [1]
  rhsContracting := [0]
  lhsNonContracting := [0]
  rhsNonContracting := [1]
  lhsBatch := []
  rhsBatch := []
  wf := dot_S2048x1024_S1024x4096_S2048x4096_1_0_0_1_n_n_wf
def dot_S2048x2048_S2048x1024_S2048x1024_1_0_0_1_n_n : DotDims S2048x2048 S2048x1024 S2048x1024 where
  lhsContracting := [1]
  rhsContracting := [0]
  lhsNonContracting := [0]
  rhsNonContracting := [1]
  lhsBatch := []
  rhsBatch := []
  wf := dot_S2048x2048_S2048x1024_S2048x1024_1_0_0_1_n_n_wf

class Facts : Prop extends Facts₀ where

variable [Facts]
-- ==== Proof.LoopValue.lean ====
/-
  The body's loop over the sixteen chunks of 128 token rows, read as values (any float instance).

  One trip loads a chunk of rows of the hidden states and of the routing-weight column and the whole of the two
  weight blocks, computes the chunk's contribution — (silu(gate) · up) times the down projection, each row scaled by
  its routing weight — and adds it to the same rows of the output buffer, which it loads back. A trip therefore
  touches the rows [128·k, 128·k + 128) only, and what it finds there is what the buffer held when the loop was
  entered: after the first k trips the buffer holds, on the rows below 128·k, its entry contents plus the
  contribution, and elsewhere its entry contents. After all sixteen: entry contents plus contribution, everywhere.
-/
import proofs.«159751_j8469675508185_1_alg».proof.Proof.Gen.KernelIdeal.Frame
import Idealize.ShloMosaic.Lib.Pipeline.Value
import Idealize.ShloMosaic.Lib.WritesUnit
import Idealize.ShloMosaic.Lib.Tactic

set_option maxRecDepth 16384

noncomputable section

open Idealize.ShloMosaic Idealize.ShloMosaic.TcCoe Idealize.SL.Sem

namespace Cert.KernelIdeal.LoopValue

open Cert.KernelIdeal Cert.KernelIdeal.Gen

variable {F : FTy → Type} [FloatOps F]

/-- One chunk's contribution, as the body computes it from the chunk's rows of the hidden states `v9`, the expert's
    gate/up block `v11`, its down block `v20` and the chunk's rows of the routing-weight column `v24`: the store's
    payload without the rows loaded back from the output. -/
def contribBlk (v9 : Vec F S128x1024 .bf16) (v11 : Vec F S1x1024x4096 .bf16) (v20 : Vec F S1x2048x1024 .bf16)
    (v24 : Vec F S1x128x1 .f32) : FVec F S128x1024 .f32 :=
  have v10 : FVec F S128x1024 .bf16 := shapeCast S128x1024 v9 shapeCasts_S128x1024_S128x1024
  have v12 : FVec F S1024x4096 .bf16 := shapeCast S1024x4096 v11 shapeCasts_S1x1024x4096_S1024x4096
  have cst : FVec F S128x4096 .f32 := constant S128x4096 .f32 0x00000000#32
  have v13 : FVec F S128x4096 .f32 := matmul dot_S128x1024_S1024x4096_S128x4096_1_0_0_1_n_n none v10 v12 cst
  have v14 : FVec F S128x2048 .f32 := extractStridedSlice S128x2048 ![0, 0] v13 slices_S128x4096_o0_0_S128x2048
  have v15 : FVec F S128x2048 .f32 := extractStridedSlice S128x2048 ![0, 2048] v13 slices_S128x4096_o0_2048_S128x2048
  have v16 : FVec F S128x2048 .f32 := logistic v14
  have v17 : FVec F S128x2048 .f32 := mulf v14 v16
  have v18 : FVec F S128x2048 .f32 := mulf v17 v15
  have v19 : FVec F S128x2048 .bf16 := truncf .bf16 v18 bitsLt_bf16_f32
  have v21 : FVec F S2048x1024 .bf16 := shapeCast S2048x1024 v20 shapeCasts_S1x2048x1024_S2048x1024
  have cst_11 : FVec F S128x1024 .f32 := constant S128x1024 .f32 0x00000000#32
  have v22 : FVec F S128x1024 .f32 := matmul dot_S128x2048_S2048x1024_S128x1024_1_0_0_1_n_n none v19 v21 cst_11
  have v25 : FVec F S128x1 .f32 := shapeCast S128x1 v24 shapeCasts_S1x128x1_S128x1
  have v26 : FVec F S128x1024 .f32 := broadcastTo S128x1024 v25 broadcasts_S128x1_S128x1024
  mulf v22 v26

/-- The store's payload is the rows loaded back plus the chunk's contribution. -/
theorem pay2_eq (v9 : Vec F S128x1024 .bf16) (v11 : Vec F S1x1024x4096 .bf16) (v20 : Vec F S1x2048x1024 .bf16)
    (v24 : Vec F S1x128x1 .f32) (v29 : Vec F S128x1024 .f32) :
    k0_pay2 v9 v11 v20 v24 v29 = addf v29 (contribBlk v9 v11 v20 v24) := by
  unfold k0_pay2 contribBlk
  dsimp only
  rw [shapeCast_self v29]

/-- The rectangle of chunk `k`'s rows in a [2048, 1024] buffer, -/
abbrev rowsRect (k : Fin k0_t1_loop.trips) : Rect S2048x1024 := Rect.unit (k0_off1 k) S128x1024.size (k0_off1_inb k)
/-- and in the [1, 2048, 1] routing-weight column. -/
abbrev colRect (k : Fin k0_t1_loop.trips) : Rect S1x2048x1 := Rect.unit (k0_off2 k) S1x128x1.size (k0_off2_inb k)
abbrev guRect : Rect S1x1024x4096 := Rect.unit ![0, 0, 0] S1x1024x4096.size inb_S1x1024x4096_S1x1024x4096_0_0_0
abbrev downRect : Rect S1x2048x1024 := Rect.unit ![0, 0, 0] S1x2048x1024.size inb_S1x2048x1024_S1x2048x1024_0_0_0

/-- Chunk `k`'s contribution from the four input blocks as the body finds them. -/
def chunk (r0 : Vec F S2048x1024 .bf16) (r1 : Vec F S1x1024x4096 .bf16) (r2 : Vec F S1x2048x1024 .bf16)
    (r3 : Vec F S1x2048x1 .f32) (k : Fin k0_t1_loop.trips) : FVec F S128x1024 .f32 :=
  contribBlk (View.ld r0 (rowsRect k)) (View.ld r1 guRect) (View.ld r2 downRect) (View.ld r3 (colRect k))

section Loop

variable (𝒱 : Variants) (c : Dev nD) (bd : Option 𝒱.V) (i : grid0.Coords) (arg1 : Memref sig .tc .vmem S2048x1024 .bf16) (harg1 : arg1.IsWhole) (arg2 : Memref sig .tc .vmem S1x1024x4096 .bf16) (harg2 : arg2.IsWhole) (arg3 : Memref sig .tc .vmem S1x2048x1024 .bf16) (harg3 : arg3.IsWhole) (arg4 : Memref sig .tc .vmem S1x2048x1 .f32) (harg4 : arg4.IsWhole) (arg5 : Memref sig .tc .vmem S2048x1024 .f32) (harg5 : arg5.IsWhole)
  (X1 : BufTy.Contents (Elt F) arg1.view.ty) (X2 : BufTy.Contents (Elt F) arg2.view.ty)
  (X3 : BufTy.Contents (Elt F) arg3.view.ty) (X4 : BufTy.Contents (Elt F) arg4.view.ty)

/-- One trip writes one piece: chunk `k`'s rows, at what it loaded back there plus the chunk's contribution. -/
theorem trip_piece (k : Fin k0_t1_loop.trips) (f : BufTy.Contents (Elt F) arg5.view.ty) :
    tripL_k0_t1 (F := F) 𝒱 c bd i arg1 harg1 arg2 harg2 arg3 harg3 arg4 harg4 arg5 harg5 X1 X2 X3 X4 k f
      = [⟨rowsRect k, addf (View.ld (arg5.view.read (Elt F) f) (rowsRect k))
          (chunk (arg1.view.read (Elt F) X1) (arg2.view.read (Elt F) X2) (arg3.view.read (Elt F) X3) (arg4.view.read (Elt F) X4) k)⟩] := by
  unfold tripL_k0_t1 trip_k0_t1
  dsimp only
  rw [pay2_eq]
  rfl

/-- After the first `k` trips a row below 128·k holds its entry contents plus the contribution `T`, any other row its
    entry contents — for any `T` that the chunks' contributions are the row blocks of. -/
theorem read_after_trips (G : BufTy.Contents (Elt F) arg5.view.ty) (T : S2048x1024.Idx → F .f32)
    (hT : ∀ (k : Fin k0_t1_loop.trips) (x : S128x1024.Idx) (y : S2048x1024.Idx),
      (y 0).val = 128 * k.val + (x 0).val → (y 1).val = (x 1).val →
      chunk (arg1.view.read (Elt F) X1) (arg2.view.read (Elt F) X2) (arg3.view.read (Elt F) X3) (arg4.view.read (Elt F) X4) k x = T y) :
    ∀ (k : ℕ), k ≤ k0_t1_loop.trips → ∀ y : S2048x1024.Idx,
      arg5.view.read (Elt F) (arg5.view.writes (Elt F) G (pb_k0_t1 (F := F) 𝒱 c bd i arg1 harg1 arg2 harg2 arg3 harg3 arg4 harg4 arg5 harg5 X1 X2 X3 X4 G k)) y
        = if (y 0).val < 128 * k then FloatOps.addf (arg5.view.read (Elt F) G y) (T y) else arg5.view.read (Elt F) G y
  | 0, _, y => by
    show arg5.view.read (Elt F) (arg5.view.writes (Elt F) G []) y = _
    rw [View.writes_nil, if_neg (by omega)]
  | k + 1, hk, y => by
    have ih := read_after_trips G T hT k (Nat.le_of_succ_le hk) y
    rw [show pb_k0_t1 (F := F) 𝒱 c bd i arg1 harg1 arg2 harg2 arg3 harg3 arg4 harg4 arg5 harg5 X1 X2 X3 X4 G (k + 1) = _ from
      pb_k0_t1_succ 𝒱 c bd i arg1 harg1 arg2 harg2 arg3 harg3 arg4 harg4 arg5 harg5 X1 X2 X3 X4 G ⟨k, hk⟩, trip_piece, List.cons_append, List.nil_append]
    refine (View.read_writes_cons_rows (o := 128 * k) (W := 128) arg5.view G (k0_off1_inb ⟨k, hk⟩) _ _ y
      (k0_off1_eq ⟨k, hk⟩) rfl rfl).trans ?_
    by_cases h : 128 * k ≤ (y 0).val ∧ (y 0).val < 128 * k + 128
    · rw [dif_pos h, if_pos (by omega)]
      have hemb : (rowsRect ⟨k, hk⟩).emb (Rect.unitLocal (s := S2048x1024) (off := ![128 * k, 0]) (size := S128x1024.size) y
          (Rect.unit_rows_mem y rfl rfl h)) = y := funext fun a => Fin.ext (by
        show k0_off1 ⟨k, hk⟩ a + 1 * ((y a).val - (![128 * k, 0] : Fin 2 → ℕ) a) = (y a).val
        rw [k0_off1_eq ⟨k, hk⟩]
        match a with
        | ⟨0, _⟩ => show 128 * k + 1 * ((y 0).val - 128 * k) = (y 0).val; omega
        | ⟨1, _⟩ => show 0 + 1 * ((y 1).val - 0) = (y 1).val; omega)
      show FloatOps.addf (arg5.view.read (Elt F) _ ((rowsRect ⟨k, hk⟩).emb _)) _ = _
      rw [hemb, ih, if_neg (by omega)]
      refine congrArg (FloatOps.addf _) (hT ⟨k, hk⟩ _ y ?_ ?_)
      · show (y 0).val = 128 * k + ((y 0).val - 128 * k); omega
      · show (y 1).val = (y 1).val - 0; omega
    · rw [dif_neg h, ih]
      by_cases h' : (y 0).val < 128 * k
      · rw [if_pos h', if_pos (by omega)]
      · rw [if_neg h', if_neg (by omega)]

end Loop

end Cert.KernelIdeal.LoopValue

end
-- ==== Proof.CaseValue.lean ====
/-
  What the body leaves in the output block at a grid point, in each of its two cases (any float instance).

  At the first expert the body fills the block with zeros and then runs the loop: the block ends at 0 + contribution.
  At every later expert the loop runs over what the expert before left: the block ends at that plus the contribution.
  The block's final contents are read through the buffer the loop itself reads, so that the loop's account of its
  trips (entry contents plus contribution) applies as it stands; the sixteen chunks cover all 2048 rows.
-/
import proofs.«159751_j8469675508185_1_alg».proof.Proof.LoopValue

set_option maxRecDepth 16384

noncomputable section

open Idealize.ShloMosaic Idealize.ShloMosaic.TcCoe Idealize.SL.Sem

namespace Cert.KernelIdeal.LoopValue

open Cert.KernelIdeal Cert.KernelIdeal.Gen

variable {F : FTy → Type} [FloatOps F]

theorem zero_offsets : (![0, 0] : Fin 2 → Nat) = fun _ => 0 := funext fun a => by fin_cases a <;> rfl

/-- The loop makes sixteen trips. -/
theorem trips_eq : k0_t1_loop.trips = 16 := by decide +kernel

/-- A LATER EXPERT (the conditional not taken): the block holding `xo` ends at `xo + T`, `T` the function whose row
    blocks are the chunks' contributions from the point's input blocks. -/
theorem out_B (c : Dev nD) (i : grid0.Coords) (arg1 : Memref sig .tc .vmem S2048x1024 .bf16) (harg1 : arg1.IsWhole) (arg2 : Memref sig .tc .vmem S1x1024x4096 .bf16) (harg2 : arg2.IsWhole) (arg3 : Memref sig .tc .vmem S1x2048x1024 .bf16) (harg3 : arg3.IsWhole) (arg4 : Memref sig .tc .vmem S1x2048x1 .f32) (harg4 : arg4.IsWhole) (arg5 : Memref sig .tc .vmem S2048x1024 .f32) (harg5 : arg5.IsWhole) (hc0 : ¬cond0_0 i)
    (x0 : Vec F S2048x1024 .bf16) (x1 : Vec F S1x1024x4096 .bf16) (x2 : Vec F S1x2048x1024 .bf16) (x3 : Vec F S1x2048x1 .f32)
    (xo4 : Vec F S2048x1024 .f32) (T : S2048x1024.Idx → F .f32)
    (hT : ∀ (k : Fin k0_t1_loop.trips) (x : S128x1024.Idx) (y : S2048x1024.Idx),
      (y 0).val = 128 * k.val + (x 0).val → (y 1).val = (x 1).val → chunk x0 x1 x2 x3 k x = T y) :
    out0_B_4 c i arg1 harg1 arg2 harg2 arg3 harg3 arg4 harg4 arg5 harg5 hc0 x0 x1 x2 x3 xo4 = fun y => FloatOps.addf (xo4 y) (T y) := by
  funext y
  have hcov := cover0_B_4 c i arg1 harg1 arg2 harg2 arg3 harg3 arg4 harg4 arg5 harg5 hc0 x0 x1 x2 x3 xo4
  unfold out0_B_4
  refine (congrFun (View.read_writes_eq_canon _ _ _ hcov) y).trans
    ((View.read_writes_apply_eq_canon arg5.view (harg5.unread xo4) y _ (hcov y)).symm.trans ?_)
  unfold kernelRun0_B
  dsimp only
  refine (read_after_trips Variants.none c none i arg1 harg1 arg2 harg2 arg3 harg3 arg4 harg4 arg5 harg5 (harg1.unread x0) (harg2.unread x1) (harg3.unread x2)
    (harg4.unread x3) (harg5.unread xo4) T (fun k x y h0 h1 => ?_) k0_t1_loop.trips le_rfl y).trans ?_
  · rw [harg1.read_unread, harg2.read_unread, harg3.read_unread, harg4.read_unread]
    exact hT k x y h0 h1
  · have hy : (y 0).val < 2048 := (y 0).isLt
    rw [if_pos (by rw [trips_eq]; omega), harg5.read_unread]

/-- THE FIRST EXPERT (the conditional taken): the block is filled with zeros first, and ends at `0 + T`. -/
theorem out_A (c : Dev nD) (i : grid0.Coords) (arg1 : Memref sig .tc .vmem S2048x1024 .bf16) (harg1 : arg1.IsWhole) (arg2 : Memref sig .tc .vmem S1x1024x4096 .bf16) (harg2 : arg2.IsWhole) (arg3 : Memref sig .tc .vmem S1x2048x1024 .bf16) (harg3 : arg3.IsWhole) (arg4 : Memref sig .tc .vmem S1x2048x1 .f32) (harg4 : arg4.IsWhole) (arg5 : Memref sig .tc .vmem S2048x1024 .f32) (harg5 : arg5.IsWhole) (hc0 : cond0_0 i)
    (x0 : Vec F S2048x1024 .bf16) (x1 : Vec F S1x1024x4096 .bf16) (x2 : Vec F S1x2048x1024 .bf16) (x3 : Vec F S1x2048x1 .f32)
    (T : S2048x1024.Idx → F .f32)
    (hT : ∀ (k : Fin k0_t1_loop.trips) (x : S128x1024.Idx) (y : S2048x1024.Idx),
      (y 0).val = 128 * k.val + (x 0).val → (y 1).val = (x 1).val → chunk x0 x1 x2 x3 k x = T y) :
    out0_A_4 c i arg1 harg1 arg2 harg2 arg3 harg3 arg4 harg4 arg5 harg5 hc0 x0 x1 x2 x3 = fun y => FloatOps.addf (Scalar.ofBits .f32 0x00000000#32) (T y) := by
  funext y
  have hcov := cover0_A_4 c i arg1 harg1 arg2 harg2 arg3 harg3 arg4 harg4 arg5 harg5 hc0 x0 x1 x2 x3
  unfold out0_A_4
  refine (congrFun (View.read_writes_eq_canon _ _ _ hcov) y).trans
    ((View.read_writes_apply_eq_canon arg5.view arg5.view.junk y _ (hcov y)).symm.trans ?_)
  unfold kernelRun0_A
  dsimp only
  rw [View.writes_append]
  refine (read_after_trips Variants.none c none i arg1 harg1 arg2 harg2 arg3 harg3 arg4 harg4 arg5 harg5 (harg1.unread x0) (harg2.unread x1) (harg3.unread x2)
    (harg4.unread x3) _ T (fun k x y h0 h1 => ?_) k0_t1_loop.trips le_rfl y).trans ?_
  · rw [harg1.read_unread, harg2.read_unread, harg3.read_unread, harg4.read_unread]
    exact hT k x y h0 h1
  · have hy : (y 0).val < 2048 := (y 0).isLt
    rw [if_pos (by rw [trips_eq]; omega)]
    sl_unfold_words
    rw [View.read_writes_junk_apply_eq_canon, View.canon_unit_zero zero_offsets]
    rfl

end Cert.KernelIdeal.LoopValue

end
-- ==== Proof.Spec.lean ====
/-
  The specification: the routed mixture-of-experts layer over the four local experts, as one function of the five
  argument arrays, entry by entry over the extended reals.

  For local expert e (global id 8·e), token t and output feature h:
    pre e t j     = ∑ₖ hidden[t, k] · gate_up[e, j, k]                       (j < 4096: gate rows, then up rows)
    act e t f     = pre e t f · logistic (pre e t f) · pre e t (2048 + f)      (silu(gate) · up)
    proj e t h    = ∑_f act e t f · down[e, h, f]
    wgt e t       = 0 + ∑ₖ (routing[t, k] if selected[t, k] = 8·e, else 0)     (the token's combined routing weight)
    contrib e t h = proj e t h · wgt e t
  and the result is (((0 + contrib 0) + contrib 1) + contrib 2) + contrib 3, in that order.
-/
import Idealize.ShloMosaic.PureOps.Ideal
import Idealize.ShloMosaic.PureOps.Ideal.Laws
import Idealize.ShloMosaic.Lib.ValueIdx

noncomputable section

namespace Cert.MoE

open Idealize.ShloMosaic Idealize.ShloMosaic.ValueIdx

/-- The argument arrays' shapes. -/
abbrev TH : Shape := ⟨2, ![2048, 1024]⟩
abbrev TK : Shape := ⟨2, ![2048, 4]⟩
abbrev EJH : Shape := ⟨3, ![4, 4096, 1024]⟩
abbrev EHF : Shape := ⟨3, ![4, 1024, 2048]⟩

/-- The word of `1.0` denotes one. -/
theorem ofBits_one_f32 : Ideal.ofBits .f32 0x3F800000#32 = 1 := by
  simp [Ideal.ofBits, Ideal.ieee, -EReal.coe_mul]; norm_num

/-- Local expert `e`'s global id: 0, 8, 16, 24. -/
def eid (e : Fin 4) : BitVec 32 := BitVec.ofNat 32 (8 * e.val)

/-- The gate row and the up row of hidden feature `f` in an expert's stacked gate/up matrix. -/
def lo (f : Fin 2048) : Fin 4096 := ⟨f.val, by have := f.isLt; omega⟩
def hi (f : Fin 2048) : Fin 4096 := ⟨2048 + f.val, by have := f.isLt; omega⟩

section
variable (hid : TH.Idx → EReal) (sel : TK.Idx → BitVec 32) (rw : TK.Idx → EReal) (gu : EJH.Idx → EReal)
  (dn : EHF.Idx → EReal)

/-- Token `t`'s hidden state against row `j` of expert `e`'s gate/up matrix. -/
def pre (e : Fin 4) (t : Fin 2048) (j : Fin 4096) : EReal := ∑ k : Fin 1024, hid (ix2 t k) * gu (ix3 e j k)

/-- silu(gate) · up. -/
def act (e : Fin 4) (t : Fin 2048) (f : Fin 2048) : EReal :=
  pre hid gu e t (lo f) * Ideal.logistic (pre hid gu e t (lo f)) * pre hid gu e t (hi f)

/-- The down projection of the activation. -/
def proj (e : Fin 4) (t : Fin 2048) (h : Fin 1024) : EReal := ∑ f : Fin 2048, act hid gu e t f * dn (ix3 e h f)

/-- Token `t`'s combined routing weight for expert `e`: its routing weights over the slots that selected `e`. -/
def wgt (e : Fin 4) (t : Fin 2048) : EReal :=
  Ideal.ofBits .f32 0x00000000#32
    + ∑ k : Fin 4, Scalar.select (IntOp.cmpi .eq (sel (ix2 t k)) (eid e)) (rw (ix2 t k)) (Ideal.ofBits .f32 0x00000000#32)

/-- Expert `e`'s contribution to token `t`'s output feature `h`. -/
def contrib (e : Fin 4) (t : Fin 2048) (h : Fin 1024) : EReal := proj hid gu dn e t h * wgt sel rw e t

/-- The result: the four contributions added to zero, first expert first. -/
def out (t : Fin 2048) (h : Fin 1024) : EReal :=
  Ideal.ofBits .f32 0x00000000#32 + contrib hid sel rw gu dn 0 t h + contrib hid sel rw gu dn 1 t h
    + contrib hid sel rw gu dn 2 t h + contrib hid sel rw gu dn 3 t h

end

/-- A routing weight times a selection bit read as a float is the weight where the bit is set and zero elsewhere —
    on every extended real, the infinities included (`x · 1 = x`, `x · 0 = 0`). -/
theorem mul_uitofp_bit (a : EReal) (c : BitVec 1) :
    a * FloatOps.uitofp (F := Ideal) .f32 c = Scalar.select c a (Ideal.ofBits .f32 0x00000000#32) := by
  show a * (((c.toNat : ℝ)) : EReal) = if c = 1 then a else Ideal.ofBits .f32 0x00000000#32
  rw [Ideal.ofBits_zero_f32]
  obtain rfl | rfl : c = 0#1 ∨ c = 1#1 := by
    have := c.isLt
    rcases Nat.lt_or_ge c.toNat 1 with h | h
    · left; exact BitVec.eq_of_toNat_eq (by simp; omega)
    · right; exact BitVec.eq_of_toNat_eq (by simp; omega)
  · simp
  · simp

/-- jax's expansion of silu on the host — `x · (1 / (1 + e^(−x)))` with the two ones as `1.0` words — is
    `x · logistic x`. -/
theorem silu_expansion (x : EReal) :
    x * Ideal.div (Ideal.ofBits .f32 0x3F800000#32) (Ideal.ofBits .f32 0x3F800000#32 + Ideal.exp (-x)) = x * Ideal.logistic x := by
  rw [ofBits_one_f32, Ideal.logistic]

end Cert.MoE

end
-- ==== Proof.LibColumn.lean ====
/-
  Two layout operations of a keepdims reduction read at an index: a vector `[a]` recast as a column `[a, 1]`, and a
  column `[a, 1]` broadcast along its rows to `[a, b]`. Both read the operand at the row's coordinate.
-/
import Idealize.ShloMosaic.Lib.Pipeline.Value
import Idealize.ShloMosaic.Lib.ValueIdx

namespace Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  One chunk's contribution read at an entry, over the extended reals.

  At row p (of the chunk's 128) and output feature q the body's value is
      (∑_f (g f · logistic (g f) · u f) · down[f, q]) · w[p],
  g f = ∑ₖ hidden[p, k] · gate_up[k, f] and u f = ∑ₖ hidden[p, k] · gate_up[k, 2048 + f]: the two matrix products
  into zero accumulators are plain sums, the two halves of the first product's columns are its gate and up parts,
  the change of float format is the identity, and the routing-weight column is broadcast along the row.
  Chunk k's rows are the rows 128·k + p of the point's blocks, so the chunks' contributions are the row blocks of
  one function of the blocks (`blockContrib`).
-/
import proofs.«159751_j8469675508185_1_alg».proof.Proof.LoopValue
import proofs.«159751_j8469675508185_1_alg».proof.Proof.Spec
import proofs.«159751_j8469675508185_1_alg».proof.Proof.LibColumn
import Idealize.ShloMosaic.PureOps.Ideal.Laws
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx

namespace Cert.KernelIdeal.Payload

open Cert.KernelIdeal Cert.KernelIdeal.Gen Cert.KernelIdeal.LoopValue Cert.MoE

theorem mm1_l0 (i : S128x4096.Idx) (q : dot_S128x1024_S1024x4096_S128x4096_1_0_0_1_n_n.contr.Idx) : (dot_S128x1024_S1024x4096_S128x4096_1_0_0_1_n_n.lhsIdx i q 0).val = (i 0).val := by
  unfold DotDims.lhsIdx
  rw [dif_neg (show ¬(0 : Fin S128x1024.rank) ∈ dot_S128x1024_S1024x4096_S128x4096_1_0_0_1_n_n.lhsBatch by decide), dif_pos (show (0 : Fin S128x1024.rank) ∈ dot_S128x1024_S1024x4096_S128x4096_1_0_0_1_n_n.lhsNonContracting by decide)]
  rfl
theorem mm1_l1 (i : S128x4096.Idx) (q : dot_S128x1024_S1024x4096_S128x4096_1_0_0_1_n_n.contr.Idx) : (dot_S128x1024_S1024x4096_S128x4096_1_0_0_1_n_n.lhsIdx i q 1).val = (q ⟨0, by decide⟩).val :=
  dot_S128x1024_S1024x4096_S128x4096_1_0_0_1_n_n.lhsIdx_val_of_single rfl i q
theorem mm1_r0 (i : S128x4096.Idx) (q : dot_S128x1024_S1024x4096_S128x4096_1_0_0_1_n_n.contr.Idx) : (dot_S128x1024_S1024x4096_S128x4096_1_0_0_1_n_n.rhsIdx i q 0).val = (q ⟨0, by decide⟩).val :=
  dot_S128x1024_S1024x4096_S128x4096_1_0_0_1_n_n.rhsIdx_val_of_single rfl i q
theorem mm1_r1 (i : S128x4096.Idx) (q : dot_S128x1024_S1024x4096_S128x4096_1_0_0_1_n_n.contr.Idx) : (dot_S128x1024_S1024x4096_S128x4096_1_0_0_1_n_n.rhsIdx i q 1).val = (i 1).val := by
  unfold DotDims.rhsIdx
  rw [dif_neg (show ¬(1 : Fin S1024x4096.rank) ∈ dot_S128x1024_S1024x4096_S128x4096_1_0_0_1_n_n.rhsBatch by decide), dif_pos (show (1 : Fin S1024x4096.rank) ∈ dot_S128x1024_S1024x4096_S128x4096_1_0_0_1_n_n.rhsNonContracting by decide)]
  rfl

/-- The first product, hidden rows against the gate/up block, into the zero accumulator: a sum over the 1024 hidden features. -/
theorem mm1_apply (a : FVec Ideal S128x1024 .bf16) (b : FVec Ideal S1024x4096 .bf16) (p : Fin 128) (j : Fin 4096) :
    matmul dot_S128x1024_S1024x4096_S128x4096_1_0_0_1_n_n none a b (constant (F := Ideal) S128x4096 .f32 0x00000000#32) (ix2 p j)
      = ∑ k : Fin 1024, a (ix2 p k) * b (ix2 k j) := by
  show FloatOps.matmul dot_S128x1024_S1024x4096_S128x4096_1_0_0_1_n_n none a b (constant (F := Ideal) S128x4096 .f32 0x00000000#32) (ix2 p j) = _
  rw [Ideal.matmul_constant_zero_apply, ← Equiv.sum_comp (ValueIdx.contrEquiv1 dot_S128x1024_S1024x4096_S128x4096_1_0_0_1_n_n 1024 rfl rfl).symm]
  refine Finset.sum_congr rfl fun k _ => ?_
  have hk := ValueIdx.contrEquiv1_symm_val dot_S128x1024_S1024x4096_S128x4096_1_0_0_1_n_n 1024 rfl rfl k
  have el : dot_S128x1024_S1024x4096_S128x4096_1_0_0_1_n_n.lhsIdx (ix2 p j) ((ValueIdx.contrEquiv1 dot_S128x1024_S1024x4096_S128x4096_1_0_0_1_n_n 1024 rfl rfl).symm k) = ix2 p k := funext fun ax => Fin.ext (by
    match ax with
    | ⟨0, _⟩ => exact mm1_l0 _ _
    | ⟨1, _⟩ => exact (mm1_l1 _ _).trans hk)
  have er : dot_S128x1024_S1024x4096_S128x4096_1_0_0_1_n_n.rhsIdx (ix2 p j) ((ValueIdx.contrEquiv1 dot_S128x1024_S1024x4096_S128x4096_1_0_0_1_n_n 1024 rfl rfl).symm k) = ix2 k j := funext fun ax => Fin.ext (by
    match ax with
    | ⟨0, _⟩ => exact (mm1_r0 _ _).trans hk
    | ⟨1, _⟩ => exact mm1_r1 _ _)
  rw [el, er]

theorem mm2_l0 (i : S128x1024.Idx) (q : dot_S128x2048_S2048x1024_S128x1024_1_0_0_1_n_n.contr.Idx) : (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem mm2_l1 (i : S128x1024.Idx) (q : dot_S128x2048_S2048x1024_S128x1024_1_0_0_1_n_n.contr.Idx) : (dot_S128x2048_S2048x1024_S128x1024_1_0_0_1_n_n.lhsIdx i q 1).val = (q ⟨0, by decide⟩).val :=
  dot_S128x2048_S2048x1024_S128x1024_1_0_0_1_n_n.lhsIdx_val_of_single rfl i q
theorem mm2_r0 (i : S128x1024.Idx) (q : dot_S128x2048_S2048x1024_S128x1024_1_0_0_1_n_n.contr.Idx) : (dot_S128x2048_S2048x1024_S128x1024_1_0_0_1_n_n.rhsIdx i q 0).val = (q ⟨0, by decide⟩).val :=
  dot_S128x2048_S2048x1024_S128x1024_1_0_0_1_n_n.rhsIdx_val_of_single rfl i q
theorem mm2_r1 (i : S128x1024.Idx) (q : dot_S128x2048_S2048x1024_S128x1024_1_0_0_1_n_n.contr.Idx) : (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- The second product, the activation against the down block, into the zero accumulator: a sum over the 2048 features. -/
theorem mm2_apply (a : FVec Ideal S128x2048 .bf16) (b : FVec Ideal S2048x1024 .bf16) (p : Fin 128) (j : Fin 1024) :
    matmul dot_S128x2048_S2048x1024_S128x1024_1_0_0_1_n_n none a b (constant (F := Ideal) S128x1024 .f32 0x00000000#32) (ix2 p j)
      = ∑ k : Fin 2048, a (ix2 p k) * b (ix2 k j) := by
  show FloatOps.matmul dot_S128x2048_S2048x1024_S128x1024_1_0_0_1_n_n none a b (constant (F := Ideal) S128x1024 .f32 0x00000000#32) (ix2 p j) = _
  rw [Ideal.matmul_constant_zero_apply, ← Equiv.sum_comp (ValueIdx.contrEquiv1 dot_S128x2048_S2048x1024_S128x1024_1_0_0_1_n_n 2048 rfl rfl).symm]
  refine Finset.sum_congr rfl fun k _ => ?_
  have hk := ValueIdx.contrEquiv1_symm_val dot_S128x2048_S2048x1024_S128x1024_1_0_0_1_n_n 2048 rfl rfl k
  have el : dot_S128x2048_S2048x1024_S128x1024_1_0_0_1_n_n.lhsIdx (ix2 p j) ((ValueIdx.contrEquiv1 dot_S128x2048_S2048x1024_S128x1024_1_0_0_1_n_n 2048 rfl rfl).symm k) = ix2 p k := funext fun ax => Fin.ext (by
    match ax with
    | ⟨0, _⟩ => exact mm2_l0 _ _
    | ⟨1, _⟩ => exact (mm2_l1 _ _).trans hk)
  have er : dot_S128x2048_S2048x1024_S128x1024_1_0_0_1_n_n.rhsIdx (ix2 p j) ((ValueIdx.contrEquiv1 dot_S128x2048_S2048x1024_S128x1024_1_0_0_1_n_n 2048 rfl rfl).symm k) = ix2 k j := funext fun ax => Fin.ext (by
    match ax with
    | ⟨0, _⟩ => exact (mm2_r0 _ _).trans hk
    | ⟨1, _⟩ => exact mm2_r1 _ _)
  rw [el, er]

/-- The block's contribution at token row `t` and output feature `h`, from the point's four input blocks. -/
def blockContrib (x0 : Vec Ideal S2048x1024 .bf16) (x1 : Vec Ideal S1x1024x4096 .bf16) (x2 : Vec Ideal S1x2048x1024 .bf16)
    (x3 : Vec Ideal S1x2048x1 .f32) (t : Fin 2048) (h : Fin 1024) : EReal :=
  (∑ f : Fin 2048,
      ((∑ k : Fin 1024, x0 (ix2 t k) * x1 (ix3 (0 : Fin 1) k (lo f)))
          * Ideal.logistic (∑ k : Fin 1024, x0 (ix2 t k) * x1 (ix3 (0 : Fin 1) k (lo f)))
          * (∑ k : Fin 1024, x0 (ix2 t k) * x1 (ix3 (0 : Fin 1) k (hi f))))
        * x2 (ix3 (0 : Fin 1) f h))
    * x3 (ix3 (0 : Fin 1) t (0 : Fin 1))

/-- A leading unit axis dropped: the [1, a, b] block read at (0, i, j). -/
theorem dropUnit3 {α : Type} {a b : ℕ} (v : (⟨3, ![1, a, b]⟩ : Shape).Idx → α) (h : (⟨3, ![1, a, b]⟩ : Shape).ShapeCasts ⟨2, ![a, b]⟩)
    (i : Fin a) (j : Fin b) : shapeCast ⟨2, ![a, b]⟩ v h (ix2 i j) = v (ix3 (0 : Fin 1) i j) := by
  rw [shapeCast_dropUnit_apply ![a, b] v h (ix2 i j)]
  exact congrArg v (funext fun ax => by match ax with | ⟨0, _⟩ => rfl | ⟨1, _⟩ => rfl | ⟨2, _⟩ => rfl)

/-- The gate half of the first product's columns: column `f`. -/
theorem slice_lo (X : FVec Ideal S128x4096 .f32) (p : Fin 128) (f : Fin 2048) :
    extractStridedSlice S128x2048 ![0, 0] X slices_S128x4096_o0_0_S128x2048 (ix2 p f) = X (ix2 p (lo f)) :=
  extractStridedSlice_apply _ _ _ (ix2 p f) (ix2 p (lo f)) (fun ax => by
    match ax with
    | ⟨0, _⟩ => show p.val = 0 + p.val; omega
    | ⟨1, _⟩ => show f.val = 0 + f.val; omega)

/-- The up half: column `2048 + f`. -/
theorem slice_hi (X : FVec Ideal S128x4096 .f32) (p : Fin 128) (f : Fin 2048) :
    extractStridedSlice S128x2048 ![0, 2048] X slices_S128x4096_o0_2048_S128x2048 (ix2 p f) = X (ix2 p (hi f)) :=
  extractStridedSlice_apply _ _ _ (ix2 p f) (ix2 p (hi f)) (fun ax => by
    match ax with
    | ⟨0, _⟩ => show p.val = 0 + p.val; omega
    | ⟨1, _⟩ => rfl)

theorem logistic_apply {s : Shape} (X : FVec Ideal s .f32) (i : s.Idx) : logistic X i = Ideal.logistic (X i) := rfl

/-- The chunk's contribution at row `p`, feature `q`. -/
theorem contribBlk_apply (v9 : Vec Ideal S128x1024 .bf16) (v11 : Vec Ideal S1x1024x4096 .bf16) (v20 : Vec Ideal S1x2048x1024 .bf16)
    (v24 : Vec Ideal S1x128x1 .f32) (p : Fin 128) (q : Fin 1024) :
    contribBlk (F := Ideal) v9 v11 v20 v24 (ix2 p q)
      = (∑ f : Fin 2048,
          ((∑ k : Fin 1024, v9 (ix2 p k) * v11 (ix3 (0 : Fin 1) k (lo f)))
              * Ideal.logistic (∑ k : Fin 1024, v9 (ix2 p k) * v11 (ix3 (0 : Fin 1) k (lo f)))
              * (∑ k : Fin 1024, v9 (ix2 p k) * v11 (ix3 (0 : Fin 1) k (hi f))))
            * v20 (ix3 (0 : Fin 1) f q))
        * v24 (ix3 (0 : Fin 1) p (0 : Fin 1)) := by
  unfold contribBlk
  rw [shapeCast_self v9]
  rw [mulf_apply, mm2_apply, broadcastTo_a1_ab_apply, dropUnit3]
  refine congrArg (· * _) (Finset.sum_congr rfl fun f _ => ?_)
  rw [dropUnit3, truncf_apply, mulf_apply, mulf_apply, logistic_apply, slice_lo, slice_hi, mm1_apply, mm1_apply]
  simp only [dropUnit3]

theorem zero3 : (![0, 0, 0] : Fin 3 → Nat) = fun _ => 0 := funext fun a => by fin_cases a <;> rfl

/-- Chunk `k`'s contribution at its row `x 0`, feature `x 1`, is the block's at row 128·k + x 0: what the loop's
    account of its trips asks of the function it adds. -/
theorem chunk_eq (x0 : Vec Ideal S2048x1024 .bf16) (x1 : Vec Ideal S1x1024x4096 .bf16) (x2 : Vec Ideal S1x2048x1024 .bf16)
    (x3 : Vec Ideal S1x2048x1 .f32) (k : Fin k0_t1_loop.trips) (x : S128x1024.Idx) (y : S2048x1024.Idx)
    (h0 : (y 0).val = 128 * k.val + (x 0).val) (h1 : (y 1).val = (x 1).val) :
    chunk x0 x1 x2 x3 k x = blockContrib x0 x1 x2 x3 ⟨(y 0).val, (y 0).isLt⟩ ⟨(y 1).val, (y 1).isLt⟩ := by
  obtain ⟨p, q, rfl⟩ : ∃ (p : Fin 128) (q : Fin 1024), x = ix2 p q := ⟨x 0, x 1, eq_ix2 x⟩
  have hq : (⟨(y 1).val, (y 1).isLt⟩ : Fin 1024) = q := Fin.ext h1
  have ht : (⟨(y 0).val, (y 0).isLt⟩ : Fin 2048).val = 128 * k.val + p.val := h0
  rw [hq]
  generalize (⟨(y 0).val, (y 0).isLt⟩ : Fin 2048) = t at ht ⊢
  unfold chunk blockContrib
  rw [View.ld_unit_zero (S := S1x1024x4096) zero3 _ x1, View.ld_unit_zero (S := S1x2048x1024) zero3 _ x2, contribBlk_apply]
  have e0 : ∀ k' : Fin 1024, View.ld x0 (rowsRect k) (ix2 p k') = x0 (ix2 t k') := fun k' =>
    congrArg x0 (funext fun ax => Fin.ext (by
      show k0_off1 k ax + 1 * ((ix2 p k' : S128x1024.Idx) ax).val = ((ix2 t k' : S2048x1024.Idx) ax).val
      rw [k0_off1_eq k]
      match ax with
      | ⟨0, _⟩ => show 128 * k.val + 1 * p.val = t.val; omega
      | ⟨1, _⟩ => show 0 + 1 * k'.val = k'.val; omega))
  have e3 : View.ld x3 (colRect k) (ix3 (0 : Fin 1) p (0 : Fin 1)) = x3 (ix3 (0 : Fin 1) t (0 : Fin 1)) :=
    congrArg x3 (funext fun ax => Fin.ext (by
      show k0_off2 k ax + 1 * ((ix3 (0 : Fin 1) p (0 : Fin 1) : S1x128x1.Idx) ax).val
        = ((ix3 (0 : Fin 1) t (0 : Fin 1) : S1x2048x1.Idx) ax).val
      rw [k0_off2_eq k]
      match ax with
      | ⟨0, _⟩ => show 0 + 1 * 0 = 0; rfl
      | ⟨1, _⟩ => show 128 * k.val + 1 * p.val = t.val; omega
      | ⟨2, _⟩ => show 0 + 1 * 0 = 0; rfl))
  simp only [e0, e3]

end Cert.KernelIdeal.Payload

end
-- ==== Proof.Blocks.lean ====
/-
  The kernel's input blocks read off the argument arrays (at the ideal instance).

  Before the kernel runs, the host converts the hidden states to bf16 (the identity on the values), transposes each
  expert's gate/up and down matrices and converts them, and computes the routing-weight array. At grid point t the
  four windows' blocks are the whole hidden states, expert t's transposed gate/up and down matrices, and expert t's
  column of routing weights. So the block's contribution at point t is the specification's contribution of expert t.
-/
import proofs.«159751_j8469675508185_1_alg».proof.Proof.Payload
import Idealize.ShloMosaic.Lib.Pipeline.Value
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.StableHlo Idealize.ShloMosaic.ValueIdx

namespace Cert.KernelIdeal.Blocks

open Cert.KernelIdeal Cert.KernelIdeal.Gen Cert.KernelIdeal.Payload Cert.MoE

/-- The routing-weight array as the host operations before the kernel compute it from the selected-expert ids and the
    routing weights: each slot's weight where the slot's id is the local expert's and the zero word elsewhere, summed
    over the four slots from the zero word, then laid out expert-major as a [4, 2048, 1] column stack. -/
def wArr {F : FTy → Type} [FloatOps F] (sel : (⟨S2048x4, .i32⟩ : BufTy).Contents (Elt F)) (rw : (⟨S2048x4, .f32⟩ : BufTy).Contents (Elt F)) :
    (⟨S4x2048x1, .f32⟩ : BufTy).Contents (Elt F) :=
  broadcastInDim S4x2048x1 ![0, 1] bcast_S4x2048_S4x2048x1_0_1
    (transpose S4x2048 [1, 0]
      (Host.reduceAdd (F := F)
        (select
          (cmpi .eq
            (broadcastInDim S2048x4x4 ![0, 1, 2] bcast_S2048x4x1_S2048x4x4_0_1_2
              (broadcastInDim S2048x4x1 ![0, 1] bcast_S2048x4_S2048x4x1_0_1 sel))
            (broadcastInDim S2048x4x4 ![0, 1, 2] bcast_S1x1x4_S2048x4x4_0_1_2
              (broadcastInDim S1x1x4 ![2] bcast_S4_S1x1x4_2 (fun i => lit0 (S4.rowMajor i)))))
          (broadcastInDim S2048x4x4 ![0, 1, 2] bcast_S2048x4x1_S2048x4x4_0_1_2
            (broadcastInDim S2048x4x1 ![0, 1] bcast_S2048x4_S2048x4x1_0_1 rw))
          (broadcastInDim S2048x4x4 ![] bcast_S_S2048x4x4 (id (constant (F := F) S_ .f32 0x00000000#32))))
        (constant (F := F) S_ .f32 0x00000000#32) reducesTo_S2048x4x4_S2048x4_d1 h_S_)
      transposes_S2048x4_S4x2048_1_0)

section Arrays

variable {F : FTy → Type} [FloatOps F]
variable (m : (ℓ : Loc nD τ sig) → Buf (Elt F) ℓ)

/-- The arrays the four windows stage, as the region finds them. -/
theorem V_hidden (c : Dev nD) : (V m c main_v10 : S2048x1024.Idx → F .bf16)
    = truncf .bf16 (m ((c : Thread nD τ).loc main_arg0)) bitsLt_bf16_f32 := by
  dsimp only [Gen.V]
  simp only [hostOps0, hostOps0_1, hostOps0_2, List.flatten_cons, List.flatten_nil, List.append_nil, List.cons_append, List.nil_append]
  after_results

theorem V_gateup (c : Dev nD) : (V m c main_v12 : S4x1024x4096.Idx → F .bf16)
    = truncf .bf16 (transpose S4x1024x4096 [0, 2, 1] (m ((c : Thread nD τ).loc main_arg3)) transposes_S4x4096x1024_S4x1024x4096_0_2_1) bitsLt_bf16_f32 := by
  dsimp only [Gen.V]
  simp only [hostOps0, hostOps0_1, hostOps0_2, List.flatten_cons, List.flatten_nil, List.append_nil, List.cons_append, List.nil_append]
  after_results

theorem V_down (c : Dev nD) : (V m c main_v14 : S4x2048x1024.Idx → F .bf16)
    = truncf .bf16 (transpose S4x2048x1024 [0, 2, 1] (m ((c : Thread nD τ).loc main_arg4)) transposes_S4x1024x2048_S4x2048x1024_0_2_1) bitsLt_bf16_f32 := by
  dsimp only [Gen.V]
  simp only [hostOps0, hostOps0_1, hostOps0_2, List.flatten_cons, List.flatten_nil, List.append_nil, List.cons_append, List.nil_append]
  after_results

theorem V_weights (c : Dev nD) : (V m c main_v9 : S4x2048x1.Idx → F .f32)
    = wArr (m ((c : Thread nD τ).loc main_arg1)) (m ((c : Thread nD τ).loc main_arg2)) := by
  dsimp only [Gen.V]
  simp only [hostOps0, hostOps0_1, hostOps0_2, List.flatten_cons, List.flatten_nil, List.append_nil, List.cons_append, List.nil_append]
  after_results
  rfl

end Arrays

/-- The local experts' ids as the program lists them. -/
theorem lit_eq (e : Fin 4) : lit0 (S4.rowMajor (ix1 e)) = eid e := by
  fin_cases e <;> rfl

/-- The routing-weight array at expert `e`, token `t`: the specification's combined weight. -/
theorem wArr_apply (sel : (⟨S2048x4, .i32⟩ : BufTy).Contents (Elt Ideal)) (rw : (⟨S2048x4, .f32⟩ : BufTy).Contents (Elt Ideal))
    (e : Fin 4) (t : Fin 2048) :
    wArr (F := Ideal) sel rw (ix3 e t (0 : Fin 1)) = wgt sel rw e t := by
  unfold wArr wgt
  rw [broadcastInDim_apply _ bcast_S4x2048_S4x2048x1_0_1 _ (ix3 e t (0 : Fin 1)) (ix2 e t) (fun a => by
      match a with | ⟨0, _⟩ => rfl | ⟨1, _⟩ => rfl),
    transpose_apply _ _ transposes_S2048x4_S4x2048_1_0 (ix2 e t) (ix2 t e) (fun b => by
      match b with | ⟨0, _⟩ => rfl | ⟨1, _⟩ => rfl)]
  simp only [Host.reduceAdd, Ideal.hostReduceAdd_def]
  rw [Ideal.hostReduceAdd_single reducesTo_S2048x4x4_S2048x4_d1 (by decide)]
  refine congrArg (_ + ·) (Finset.sum_congr rfl fun k _ => ?_)
  have hk : (Shape.Reduces.lift (by decide : S2048x4x4.Reduces [1] S2048x4) (ix2 t e) k : S2048x4x4.Idx) = ix3 t k e :=
    funext fun a => Fin.ext (by match a with | ⟨0, _⟩ => rfl | ⟨1, _⟩ => rfl | ⟨2, _⟩ => rfl)
  rw [hk]
  have hA : broadcastInDim S2048x4x4 ![0, 1, 2] bcast_S2048x4x1_S2048x4x4_0_1_2
      (broadcastInDim S2048x4x1 ![0, 1] bcast_S2048x4_S2048x4x1_0_1 sel) (ix3 t k e) = sel (ix2 t k) :=
    (broadcastInDim_apply _ bcast_S2048x4x1_S2048x4x4_0_1_2 _ (ix3 t k e) (ix3 t k (0 : Fin 1)) (fun a => by
      match a with | ⟨0, _⟩ => rfl | ⟨1, _⟩ => rfl | ⟨2, _⟩ => rfl)).trans
    (broadcastInDim_apply _ bcast_S2048x4_S2048x4x1_0_1 sel (ix3 t k (0 : Fin 1)) (ix2 t k) (fun a => by
      match a with | ⟨0, _⟩ => rfl | ⟨1, _⟩ => rfl))
  have hB : broadcastInDim S2048x4x4 ![0, 1, 2] bcast_S1x1x4_S2048x4x4_0_1_2
      (broadcastInDim S1x1x4 ![2] bcast_S4_S1x1x4_2 (fun i => lit0 (S4.rowMajor i))) (ix3 t k e) = eid e :=
    (broadcastInDim_apply _ bcast_S1x1x4_S2048x4x4_0_1_2 _ (ix3 t k e) (ix3 (0 : Fin 1) (0 : Fin 1) e) (fun a => by
      match a with | ⟨0, _⟩ => rfl | ⟨1, _⟩ => rfl | ⟨2, _⟩ => rfl)).trans
    ((broadcastInDim_apply _ bcast_S4_S1x1x4_2 _ (ix3 (0 : Fin 1) (0 : Fin 1) e) (ix1 e) (fun a => by
      match a with | ⟨0, _⟩ => rfl)).trans (lit_eq e))
  have hC : broadcastInDim S2048x4x4 ![0, 1, 2] bcast_S2048x4x1_S2048x4x4_0_1_2
      (broadcastInDim S2048x4x1 ![0, 1] bcast_S2048x4_S2048x4x1_0_1 rw) (ix3 t k e) = rw (ix2 t k) :=
    (broadcastInDim_apply _ bcast_S2048x4x1_S2048x4x4_0_1_2 _ (ix3 t k e) (ix3 t k (0 : Fin 1)) (fun a => by
      match a with | ⟨0, _⟩ => rfl | ⟨1, _⟩ => rfl | ⟨2, _⟩ => rfl)).trans
    (broadcastInDim_apply _ bcast_S2048x4_S2048x4x1_0_1 rw (ix3 t k (0 : Fin 1)) (ix2 t k) (fun a => by
      match a with | ⟨0, _⟩ => rfl | ⟨1, _⟩ => rfl))
  have hD : broadcastInDim S2048x4x4 ![] bcast_S_S2048x4x4 (id (constant (F := Ideal) S_ .f32 0x00000000#32)) (ix3 t k e)
      = Ideal.ofBits .f32 0x00000000#32 :=
    broadcastInDim_apply _ bcast_S_S2048x4x4 _ (ix3 t k e) ix0 (fun a => a.elim0)
  exact congr (congr (congrArg Scalar.select (congr (congrArg (IntOp.cmpi CmpIPredicate.eq) hA) hB)) hC) hD

section Blocks

variable (m : (ℓ : Loc nD τ sig) → Buf (Elt Ideal) ℓ)

/-- Where each window's block sits at a point: the hidden states' and the output's at the origin, the three per-expert
    windows' at expert `t`. -/
theorem index_hidden : ∀ t : Fin cfg0.N, win0_0.index t 0 = 0 ∧ win0_0.index t 1 = 0 :=
  (by decide +kernel : ∀ t : Fin grid0.N, win0_0.index t 0 = 0 ∧ win0_0.index t 1 = 0)
theorem index_gateup : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index_down : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem index_weights : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- The hidden-state block is the hidden states. -/
theorem blk_hidden (c : Dev nD) (t : Fin cfg0.N) (r : Fin 2048) (k : Fin 1024) :
    (iblk m c 0 t : Vec Ideal S2048x1024 .bf16) (ix2 r k) = m ((c : Thread nD τ).loc main_arg0) (ix2 r k) := by
  have hi := index_hidden t
  unfold iblk
  rw [View.read_apply]
  show V m c main_v10 _ = _
  refine (congrFun (V_hidden m c) _).trans ?_
  show m ((c : Thread nD τ).loc main_arg0) _ = _
  congr 1
  funext a
  apply Fin.ext
  match a with
  | ⟨0, _⟩ => show win0_0.index t 0 * 2048 + 1 * r.val = r.val; rw [hi.1]; omega
  | ⟨1, _⟩ => show win0_0.index t 1 * 1024 + 1 * k.val = k.val; rw [hi.2]; omega

/-- Expert `e`'s gate/up block at (hidden feature k, row j) is the gate/up matrix at (e, j, k). -/
theorem blk_gateup (c : Dev nD) (t : Fin cfg0.N) (e : Fin 4) (he : e.val = t.val) (k : Fin 1024) (j : Fin 4096) :
    (iblk m c 1 t : Vec Ideal S1x1024x4096 .bf16) (ix3 (0 : Fin 1) k j) = m ((c : Thread nD τ).loc main_arg3) (ix3 e j k) := by
  have hi := index_gateup t
  unfold iblk
  rw [View.read_apply]
  show V m c main_v12 _ = _
  refine (congrFun (V_gateup m c) _).trans ?_
  show transpose S4x1024x4096 [0, 2, 1] (m ((c : Thread nD τ).loc main_arg3)) transposes_S4x4096x1024_S4x1024x4096_0_2_1 _ = _
  refine transpose_apply _ _ _ _ (ix3 e j k) (fun b => ?_)
  match b with
  | ⟨0, _⟩ => show e.val = win0_1.index t 0 * 1 + 1 * 0; rw [hi.1]; omega
  | ⟨1, _⟩ => show k.val = win0_1.index t 1 * 1024 + 1 * k.val; rw [hi.2.1]; omega
  | ⟨2, _⟩ => show j.val = win0_1.index t 2 * 4096 + 1 * j.val; rw [hi.2.2]; omega

/-- Expert `e`'s down block at (feature f, output feature h) is the down matrix at (e, h, f). -/
theorem blk_down (c : Dev nD) (t : Fin cfg0.N) (e : Fin 4) (he : e.val = t.val) (f : Fin 2048) (h : Fin 1024) :
    (iblk m c 2 t : Vec Ideal S1x2048x1024 .bf16) (ix3 (0 : Fin 1) f h) = m ((c : Thread nD τ).loc main_arg4) (ix3 e h f) := by
  have hi := index_down t
  unfold iblk
  rw [View.read_apply]
  show V m c main_v14 _ = _
  refine (congrFun (V_down m c) _).trans ?_
  show transpose S4x2048x1024 [0, 2, 1] (m ((c : Thread nD τ).loc main_arg4)) transposes_S4x1024x2048_S4x2048x1024_0_2_1 _ = _
  refine transpose_apply _ _ _ _ (ix3 e h f) (fun b => ?_)
  match b with
  | ⟨0, _⟩ => show e.val = win0_2.index t 0 * 1 + 1 * 0; rw [hi.1]; omega
  | ⟨1, _⟩ => show f.val = win0_2.index t 1 * 2048 + 1 * f.val; rw [hi.2.1]; omega
  | ⟨2, _⟩ => show h.val = win0_2.index t 2 * 1024 + 1 * h.val; rw [hi.2.2]; omega

/-- Expert `e`'s routing-weight column at token `r` is the token's combined weight for `e`. -/
theorem blk_weights (c : Dev nD) (t : Fin cfg0.N) (e : Fin 4) (he : e.val = t.val) (r : Fin 2048) :
    (iblk m c 3 t : Vec Ideal S1x2048x1 .f32) (ix3 (0 : Fin 1) r (0 : Fin 1))
      = wgt (m ((c : Thread nD τ).loc main_arg1)) (m ((c : Thread nD τ).loc main_arg2)) e r := by
  have hi := index_weights t
  unfold iblk
  rw [View.read_apply]
  show V m c main_v9 _ = _
  refine (congrFun (V_weights m c) _).trans ?_
  refine Eq.trans (congrArg _ (funext fun a => Fin.ext ?_)) (wArr_apply _ _ e r)
  match a with
  | ⟨0, _⟩ => show win0_3.index t 0 * 1 + 1 * 0 = e.val; rw [hi.1]; omega
  | ⟨1, _⟩ => show win0_3.index t 1 * 2048 + 1 * r.val = r.val; rw [hi.2.1]; omega
  | ⟨2, _⟩ => show win0_3.index t 2 * 1 + 1 * 0 = 0; rw [hi.2.2]

/-- So the block's contribution at point `t` is expert `t`'s in the specification. -/
theorem blockContrib_eq (c : Dev nD) (t : Fin cfg0.N) (e : Fin 4) (he : e.val = t.val) (r : Fin 2048) (h : Fin 1024) :
    blockContrib (iblk m c 0 t) (iblk m c 1 t) (iblk m c 2 t) (iblk m c 3 t) r h
      = contrib (m ((c : Thread nD τ).loc main_arg0)) (m ((c : Thread nD τ).loc main_arg1)) (m ((c : Thread nD τ).loc main_arg2))
          (m ((c : Thread nD τ).loc main_arg3)) (m ((c : Thread nD τ).loc main_arg4)) e r h := by
  unfold blockContrib contrib proj act pre
  simp only [blk_hidden m c t, blk_gateup m c t e he, blk_down m c t e he, blk_weights m c t e he]

end Blocks

end Cert.KernelIdeal.Blocks

end
-- ==== Proof.Chain.lean ====
/-
  The kernel's run, read: the result array ends at the specification.

  The output block's index never moves, so its buffer is carried from one expert to the next and written back once,
  after the last. After expert 0 it holds 0 + contribution 0; after expert n + 1, what expert n left plus contribution
  n + 1 (by induction on the grid point, the two cases of the body read in the loop's terms). The one write-back, at
  the last point, writes the whole block to the whole array. Each point's contribution is the specification's
  contribution of that expert, so the array ends at (((0 + c₀) + c₁) + c₂) + c₃.
-/
import proofs.«159751_j8469675508185_1_alg».proof.Proof.CaseValue
import proofs.«159751_j8469675508185_1_alg».proof.Proof.Blocks
import proofs.«159751_j8469675508185_1_alg».proof.Proof.Gen.KernelIdeal.Value
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Chain

open Cert.KernelIdeal Cert.KernelIdeal.Gen Cert.KernelIdeal.LoopValue Cert.KernelIdeal.Payload Cert.KernelIdeal.Blocks Cert.MoE

variable (m : (ℓ : Loc nD τ sig) → Buf (Elt Ideal) ℓ) (ρ : Dev nD → PrngReg)

/-- Grid point `t`'s contribution to the output block, as a function of the block's index. -/
def pointContrib (c : Dev nD) (t : Fin cfg0.N) : S2048x1024.Idx → EReal := fun y =>
  blockContrib (iblk m c 0 t) (iblk m c 1 t) (iblk m c 2 t) (iblk m c 3 t) ⟨(y 0).val, (y 0).isLt⟩ ⟨(y 1).val, (y 1).isLt⟩

/-- Its row blocks are the loop's chunks. -/
theorem pointContrib_chunks (c : Dev nD) (t : Fin cfg0.N) (k : Fin k0_t1_loop.trips) (x : S128x1024.Idx) (y : S2048x1024.Idx)
    (h0 : (y 0).val = 128 * k.val + (x 0).val) (h1 : (y 1).val = (x 1).val) :
    chunk (iblk m c 0 t) (iblk m c 1 t) (iblk m c 2 t) (iblk m c 3 t) k x = pointContrib m c t y :=
  chunk_eq _ _ _ _ k x y h0 h1

/-- The running sum after point `n`: zero plus the first contribution, then one more contribution per point. -/
def chain (c : Dev nD) : (n : ℕ) → n < cfg0.N → FVec Ideal S2048x1024 .f32
  | 0, h => fun y => FloatOps.addf (F := Ideal) (φ := .f32) (Scalar.ofBits .f32 0x00000000#32) (pointContrib m c ⟨0, h⟩ y)
  | n + 1, h => fun y => FloatOps.addf (F := Ideal) (φ := .f32) (chain c n (Nat.lt_of_succ_lt h) y) (pointContrib m c ⟨n + 1, h⟩ y)

/-- What the output's buffer holds after point `n` is the running sum. -/
theorem outsAt_eq (c : Dev nD) : ∀ (n : ℕ) (h : n < cfg0.N), outsAt0 m c n h = chain m c n h
  | 0, h =>
    (outsAt0_A m c ⟨0, h⟩ rfl).trans
      (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl) (iblk m c 0 ⟨0, h⟩) (iblk m c 1 ⟨0, h⟩) (iblk m c 2 ⟨0, h⟩) (iblk m c 3 ⟨0, h⟩)
        (pointContrib m c ⟨0, h⟩) (pointContrib_chunks m c ⟨0, h⟩))
  | n + 1, h => by
    have hN : cfg0.N = 4 := N_0
    have hB : ¬(⟨n + 1, h⟩ : Fin cfg0.N).val % 4 = 0 := by dsimp only; omega
    rw [outsAt0_B m c ⟨n + 1, h⟩ hB]
    refine (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh)) (iblk m c 0 ⟨n + 1, h⟩) (iblk m c 1 ⟨n + 1, h⟩) (iblk m c 2 ⟨n + 1, h⟩) (iblk m c 3 ⟨n + 1, h⟩)
      _ (pointContrib m c ⟨n + 1, h⟩) (pointContrib_chunks m c ⟨n + 1, h⟩)).trans ?_
    show (fun y => FloatOps.addf (F := Ideal) (φ := .f32) (outsAt0 m c n _ y) _) = fun y => FloatOps.addf (F := Ideal) (φ := .f32) (chain m c n _ y) _
    rw [outsAt_eq c n]

/-- The result: the running sum after the last point. -/
abbrev result (c : Dev nD) : Buf (Elt Ideal) ((c : Thread nD τ).loc main_v15) :=
  chain m c 3 (by rw [show cfg0.N = 4 from N_0]; decide)

/-- The one write-back, at the last point, writes the running sum: the output's block is the whole array. -/
theorem flushed_eq (c : Dev nD) (t : Fin cfg0.N) (hf : (cfg0.win 4).flush t = true) :
    (dats m 0 c).flushed 4 t = ((cfg0.win 4).blk t).view.read (Elt Ideal) (result m c) := by
  have hN : cfg0.N = 4 := N_0
  have h3 : t.val = 3 := by have := (flush0_4 t).mp hf; have := t.isLt; omega
  obtain rfl : t = t0_3 := Fin.ext h3
  rw [Cert.KernelIdeal.Value.flushed4, outsAt_eq]
  have hz : (fun a => win0_4.index t0_3 a * main_v15.ty.shape.size a) = fun _ => 0 := funext fun a => by fin_cases a <;> decide
  exact (Memref.read_access_unit_zero (Elt Ideal) main_v15 hz (fun a => by rw [congrFun hz a]; simp) (result m c)).symm

/-- Every entry of the array lies in that point's block. -/
theorem covered (c : Dev nD) (i : S2048x1024.Idx) :
    ∃ t : Fin cfg0.N, (cfg0.win 4).flush t = true ∧ i ∈ ((cfg0.win 4).blk t).view.set := by
  refine ⟨t0_3, (flush0_4 t0_3).mpr rfl, ?_⟩
  show i ∈ ((View.whole main_v15).slice (win0_4.rect t0_3)).set
  rw [View.set_slice_whole, Rect.mem_set_unit]
  intro a
  have h0 : (i 0 : Nat) < 2048 := (i 0).isLt
  have h1 : (i 1 : Nat) < 1024 := (i 1).isLt
  match a with
  | ⟨0, _⟩ =>
    show win0_4.index t0_3 0 * win0_4.size 0 ≤ (i 0 : Nat) ∧ (i 0 : Nat) < win0_4.index t0_3 0 * win0_4.size 0 + win0_4.xsize (grid0.coords t0_3) 0
    rw [show win0_4.index t0_3 0 * win0_4.size 0 = 0 from by decide +kernel, show win0_4.xsize (grid0.coords t0_3) 0 = 2048 from by decide +kernel]
    omega
  | ⟨1, _⟩ =>
    show win0_4.index t0_3 1 * win0_4.size 1 ≤ (i 1 : Nat) ∧ (i 1 : Nat) < win0_4.index t0_3 1 * win0_4.size 1 + win0_4.xsize (grid0.coords t0_3) 1
    rw [show win0_4.index t0_3 1 * win0_4.size 1 = 0 from by decide +kernel, show win0_4.xsize (grid0.coords t0_3) 1 = 1024 from by decide +kernel]
    omega

/-- So the result array ends holding the running sum after the last point. -/
theorem final (c : Dev nD) : (dats m 0 c).arrAt 4 cfg0.N = result m c :=
  (dats m 0 c).arrAt_eq_of_cover 4 (result m c) (flushed_eq m c) (covered c)

/-- The run: the result array at the running sum, the five arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

/-- The running sum after the last point is the specification. -/
theorem result_apply (c : Dev nD) (t : Fin 2048) (h : Fin 1024) :
    result m c (ix2 t h) = out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) t h := by
  show chain m c 3 _ (ix2 t h) = _
  simp only [chain, pointContrib]
  rw [blockContrib_eq m c ⟨0, _⟩ 0 rfl, blockContrib_eq m c ⟨0 + 1, _⟩ 1 rfl, blockContrib_eq m c ⟨0 + 1 + 1, _⟩ 2 rfl,
    blockContrib_eq m c ⟨0 + 1 + 1 + 1, _⟩ 3 rfl]
  rfl

end Cert.KernelIdeal.Chain

end
-- ==== Proof.RefValue.lean ====
/-
  The reference, read entry by entry, is the specification.

  For each local expert the reference slices the expert's matrices out of the stacks, transposes them, and computes
  (silu(x · gate_upᵀ's gate half) · its up half) · downᵀ, scaled per token by the sum over the four slots of the
  routing weight times the slot's selection bit, and adds the four results to a zero array, first expert first. Read at
  an index: the two `dot_general`s are sums, jax's expansion of silu is `x · logistic x`, and a weight times a bit is the
  weight where the bit is set and zero elsewhere.
-/
import proofs.«159751_j8469675508185_1_alg».proof.Proof.Gen.ReferenceIdeal.Read
import proofs.«159751_j8469675508185_1_alg».proof.Proof.Spec
import Idealize.ShloMosaic.Lib.ValueIdx
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.MoE

variable (x0 : (⟨S2048x1024, .f32⟩ : BufTy).Contents (Elt Ideal)) (x1 : (⟨S2048x4, .i32⟩ : BufTy).Contents (Elt Ideal))
  (x2 : (⟨S2048x4, .f32⟩ : BufTy).Contents (Elt Ideal)) (x3 : (⟨S4x4096x1024, .f32⟩ : BufTy).Contents (Elt Ideal))
  (x4 : (⟨S4x1024x2048, .f32⟩ : BufTy).Contents (Elt Ideal))

/-! ### Expert 0 -/

theorem pre0 (t : Fin 2048) (j : Fin 4096) : val_main_v9 (F := Ideal) x0 x3 (ix2 t j) = pre x0 x3 0 t j := by
  rw [val_main_v9_apply]
  unfold pre
  refine Finset.sum_congr rfl fun k _ => ?_
  rw [val_main_v8_apply, val_main_v7_apply, val_main_v6_apply]
  have hj := j.isLt
  have hk := k.isLt
  exact congr (congrArg (· * ·) (congrArg x0 (funext fun a => Fin.ext (by match a with | ⟨0, _⟩ => rfl | ⟨1, _⟩ => rfl))))
    (congrArg x3 (funext fun a => Fin.ext (by
      match a with
      | ⟨0, _⟩ => rfl
      | ⟨1, _⟩ => show (j.val * 1024 + k.val) / 1024 % 4096 = j.val; omega
      | ⟨2, _⟩ => show (j.val * 1024 + k.val) % 1024 = k.val; omega)))

theorem act0 (t : Fin 2048) (f : Fin 2048) : val_main_v13 (F := Ideal) x0 x3 (ix2 t f) = act x0 x3 0 t f := by
  have hlo : idx_main_v10 (ix2 t f : S2048x2048.Idx) = ix2 t (lo f) := funext fun a => Fin.ext (by
    match a with
    | ⟨0, _⟩ => first | rfl | exact Nat.zero_add _
    | ⟨1, _⟩ => first | rfl | exact Nat.zero_add _)
  have hhi : idx_main_v11 (ix2 t f : S2048x2048.Idx) = ix2 t (hi f) := funext fun a => Fin.ext (by
    match a with
    | ⟨0, _⟩ => first | rfl | exact Nat.zero_add _
    | ⟨1, _⟩ => first | rfl | exact Nat.add_comm _ _)
  rw [val_main_v13_apply, val_main_v12_apply, val_main_call0_v5_apply, val_main_call0_v4_apply, val_main_call0_cst_0_apply,
    val_main_call0_v3_apply, val_main_call0_v2_apply, val_main_call0_cst_apply, val_main_call0_v1_apply, val_main_call0_v0_apply,
    val_main_v10_apply, val_main_v11_apply, hlo, hhi, pre0, pre0]
  simp only [Ideal.mulf_def, Ideal.hostDivf_def, Ideal.addf_def, Ideal.hostUnary_exp_def, Ideal.hostNegf_def, Ideal.negf_def,
    Ideal.ofBits_def]
  unfold act
  rw [silu_expansion]

theorem proj0 (t : Fin 2048) (h : Fin 1024) : val_main_v17 (F := Ideal) x0 x3 x4 (ix2 t h) = proj x0 x3 x4 0 t h := by
  rw [val_main_v17_apply]
  unfold proj
  refine Finset.sum_congr rfl fun f _ => ?_
  have hl : lidx_main_v17 (ix2 t h : S2048x1024.Idx) f = ix2 t f := funext fun a => Fin.ext (by match a with | ⟨0, _⟩ => rfl | ⟨1, _⟩ => rfl)
  rw [hl, act0, val_main_v16_apply, val_main_v15_apply, val_main_v14_apply]
  have hh := h.isLt
  have hf := f.isLt
  exact congrArg (_ * ·) (congrArg x4 (funext fun a => Fin.ext (by
    match a with
    | ⟨0, _⟩ => rfl
    | ⟨1, _⟩ => show (h.val * 2048 + f.val) / 2048 % 1024 = h.val; omega
    | ⟨2, _⟩ => show (h.val * 2048 + f.val) % 2048 = f.val; omega)))

theorem wgt0 (t : Fin 2048) : val_main_v5 (F := Ideal) x1 x2 (ix1 t) = wgt x1 x2 0 t := by
  rw [val_main_v5_apply]
  unfold wgt
  refine congrArg₂ (· + ·) (by rfl) (Finset.sum_congr rfl fun k _ => ?_)
  have hi : idx_main_v5 (ix1 t : S2048.Idx) k = ix2 t k := funext fun a => Fin.ext (by match a with | ⟨0, _⟩ => rfl | ⟨1, _⟩ => rfl)
  rw [hi, val_main_v4_apply, val_main_v3_apply, val_main_v2_apply, val_main_v1_apply, val_main_c_apply]
  exact mul_uitofp_bit _ _

theorem contrib0 (t : Fin 2048) (h : Fin 1024) :
    val_main_v20 (F := Ideal) x0 x1 x2 x3 x4 (ix2 t h) = contrib x0 x1 x2 x3 x4 0 t h := by
  have hw : idx_main_v18 (idx_main_v19 (ix2 t h : S2048x1024.Idx)) = ix1 t := funext fun a => Fin.ext (by match a with | ⟨0, _⟩ => rfl)
  rw [val_main_v20_apply, val_main_v19_apply, val_main_v18_apply, hw, proj0, wgt0]
  rfl

/-! ### Expert 1 -/

theorem pre1 (t : Fin 2048) (j : Fin 4096) : val_main_v30 (F := Ideal) x0 x3 (ix2 t j) = pre x0 x3 1 t j := by
  rw [val_main_v30_apply]
  unfold pre
  refine Finset.sum_congr rfl fun k _ => ?_
  rw [val_main_v29_apply, val_main_v28_apply, val_main_v27_apply]
  have hj := j.isLt
  have hk := k.isLt
  exact congr (congrArg (· * ·) (congrArg x0 (funext fun a => Fin.ext (by match a with | ⟨0, _⟩ => rfl | ⟨1, _⟩ => rfl))))
    (congrArg x3 (funext fun a => Fin.ext (by
      match a with
      | ⟨0, _⟩ => rfl
      | ⟨1, _⟩ => show (j.val * 1024 + k.val) / 1024 % 4096 = j.val; omega
      | ⟨2, _⟩ => show (j.val * 1024 + k.val) % 1024 = k.val; omega)))

theorem act1 (t : Fin 2048) (f : Fin 2048) : val_main_v34 (F := Ideal) x0 x3 (ix2 t f) = act x0 x3 1 t f := by
  have hlo : idx_main_v31 (ix2 t f : S2048x2048.Idx) = ix2 t (lo f) := funext fun a => Fin.ext (by
    match a with
    | ⟨0, _⟩ => first | rfl | exact Nat.zero_add _
    | ⟨1, _⟩ => first | rfl | exact Nat.zero_add _)
  have hhi : idx_main_v32 (ix2 t f : S2048x2048.Idx) = ix2 t (hi f) := funext fun a => Fin.ext (by
    match a with
    | ⟨0, _⟩ => first | rfl | exact Nat.zero_add _
    | ⟨1, _⟩ => first | rfl | exact Nat.add_comm _ _)
  rw [val_main_v34_apply, val_main_v33_apply, val_main_call1_v5_apply, val_main_call1_v4_apply, val_main_call1_cst_0_apply,
    val_main_call1_v3_apply, val_main_call1_v2_apply, val_main_call1_cst_apply, val_main_call1_v1_apply, val_main_call1_v0_apply,
    val_main_v31_apply, val_main_v32_apply, hlo, hhi, pre1, pre1]
  simp only [Ideal.mulf_def, Ideal.hostDivf_def, Ideal.addf_def, Ideal.hostUnary_exp_def, Ideal.hostNegf_def, Ideal.negf_def,
    Ideal.ofBits_def]
  unfold act
  rw [silu_expansion]

theorem proj1 (t : Fin 2048) (h : Fin 1024) : val_main_v38 (F := Ideal) x0 x3 x4 (ix2 t h) = proj x0 x3 x4 1 t h := by
  rw [val_main_v38_apply]
  unfold proj
  refine Finset.sum_congr rfl fun f _ => ?_
  have hl : lidx_main_v38 (ix2 t h : S2048x1024.Idx) f = ix2 t f := funext fun a => Fin.ext (by match a with | ⟨0, _⟩ => rfl | ⟨1, _⟩ => rfl)
  rw [hl, act1, val_main_v37_apply, val_main_v36_apply, val_main_v35_apply]
  have hh := h.isLt
  have hf := f.isLt
  exact congrArg (_ * ·) (congrArg x4 (funext fun a => Fin.ext (by
    match a with
    | ⟨0, _⟩ => rfl
    | ⟨1, _⟩ => show (h.val * 2048 + f.val) / 2048 % 1024 = h.val; omega
    | ⟨2, _⟩ => show (h.val * 2048 + f.val) % 2048 = f.val; omega)))

theorem wgt1 (t : Fin 2048) : val_main_v26 (F := Ideal) x1 x2 (ix1 t) = wgt x1 x2 1 t := by
  rw [val_main_v26_apply]
  unfold wgt
  refine congrArg₂ (· + ·) (by rfl) (Finset.sum_congr rfl fun k _ => ?_)
  have hi : idx_main_v26 (ix1 t : S2048.Idx) k = ix2 t k := funext fun a => Fin.ext (by match a with | ⟨0, _⟩ => rfl | ⟨1, _⟩ => rfl)
  rw [hi, val_main_v25_apply, val_main_v24_apply, val_main_v23_apply, val_main_v22_apply, val_main_c_1_apply]
  exact mul_uitofp_bit _ _

theorem contrib1 (t : Fin 2048) (h : Fin 1024) :
    val_main_v41 (F := Ideal) x0 x1 x2 x3 x4 (ix2 t h) = contrib x0 x1 x2 x3 x4 1 t h := by
  have hw : idx_main_v39 (idx_main_v40 (ix2 t h : S2048x1024.Idx)) = ix1 t := funext fun a => Fin.ext (by match a with | ⟨0, _⟩ => rfl)
  rw [val_main_v41_apply, val_main_v40_apply, val_main_v39_apply, hw, proj1, wgt1]
  rfl

/-! ### Expert 2 -/

theorem pre2 (t : Fin 2048) (j : Fin 4096) : val_main_v51 (F := Ideal) x0 x3 (ix2 t j) = pre x0 x3 2 t j := by
  rw [val_main_v51_apply]
  unfold pre
  refine Finset.sum_congr rfl fun k _ => ?_
  rw [val_main_v50_apply, val_main_v49_apply, val_main_v48_apply]
  have hj := j.isLt
  have hk := k.isLt
  exact congr (congrArg (· * ·) (congrArg x0 (funext fun a => Fin.ext (by match a with | ⟨0, _⟩ => rfl | ⟨1, _⟩ => rfl))))
    (congrArg x3 (funext fun a => Fin.ext (by
      match a with
      | ⟨0, _⟩ => rfl
      | ⟨1, _⟩ => show (j.val * 1024 + k.val) / 1024 % 4096 = j.val; omega
      | ⟨2, _⟩ => show (j.val * 1024 + k.val) % 1024 = k.val; omega)))

theorem act2 (t : Fin 2048) (f : Fin 2048) : val_main_v55 (F := Ideal) x0 x3 (ix2 t f) = act x0 x3 2 t f := by
  have hlo : idx_main_v52 (ix2 t f : S2048x2048.Idx) = ix2 t (lo f) := funext fun a => Fin.ext (by
    match a with
    | ⟨0, _⟩ => first | rfl | exact Nat.zero_add _
    | ⟨1, _⟩ => first | rfl | exact Nat.zero_add _)
  have hhi : idx_main_v53 (ix2 t f : S2048x2048.Idx) = ix2 t (hi f) := funext fun a => Fin.ext (by
    match a with
    | ⟨0, _⟩ => first | rfl | exact Nat.zero_add _
    | ⟨1, _⟩ => first | rfl | exact Nat.add_comm _ _)
  rw [val_main_v55_apply, val_main_v54_apply, val_main_call2_v5_apply, val_main_call2_v4_apply, val_main_call2_cst_0_apply,
    val_main_call2_v3_apply, val_main_call2_v2_apply, val_main_call2_cst_apply, val_main_call2_v1_apply, val_main_call2_v0_apply,
    val_main_v52_apply, val_main_v53_apply, hlo, hhi, pre2, pre2]
  simp only [Ideal.mulf_def, Ideal.hostDivf_def, Ideal.addf_def, Ideal.hostUnary_exp_def, Ideal.hostNegf_def, Ideal.negf_def,
    Ideal.ofBits_def]
  unfold act
  rw [silu_expansion]

theorem proj2 (t : Fin 2048) (h : Fin 1024) : val_main_v59 (F := Ideal) x0 x3 x4 (ix2 t h) = proj x0 x3 x4 2 t h := by
  rw [val_main_v59_apply]
  unfold proj
  refine Finset.sum_congr rfl fun f _ => ?_
  have hl : lidx_main_v59 (ix2 t h : S2048x1024.Idx) f = ix2 t f := funext fun a => Fin.ext (by match a with | ⟨0, _⟩ => rfl | ⟨1, _⟩ => rfl)
  rw [hl, act2, val_main_v58_apply, val_main_v57_apply, val_main_v56_apply]
  have hh := h.isLt
  have hf := f.isLt
  exact congrArg (_ * ·) (congrArg x4 (funext fun a => Fin.ext (by
    match a with
    | ⟨0, _⟩ => rfl
    | ⟨1, _⟩ => show (h.val * 2048 + f.val) / 2048 % 1024 = h.val; omega
    | ⟨2, _⟩ => show (h.val * 2048 + f.val) % 2048 = f.val; omega)))

theorem wgt2 (t : Fin 2048) : val_main_v47 (F := Ideal) x1 x2 (ix1 t) = wgt x1 x2 2 t := by
  rw [val_main_v47_apply]
  unfold wgt
  refine congrArg₂ (· + ·) (by rfl) (Finset.sum_congr rfl fun k _ => ?_)
  have hi : idx_main_v47 (ix1 t : S2048.Idx) k = ix2 t k := funext fun a => Fin.ext (by match a with | ⟨0, _⟩ => rfl | ⟨1, _⟩ => rfl)
  rw [hi, val_main_v46_apply, val_main_v45_apply, val_main_v44_apply, val_main_v43_apply, val_main_c_3_apply]
  exact mul_uitofp_bit _ _

theorem contrib2 (t : Fin 2048) (h : Fin 1024) :
    val_main_v62 (F := Ideal) x0 x1 x2 x3 x4 (ix2 t h) = contrib x0 x1 x2 x3 x4 2 t h := by
  have hw : idx_main_v60 (idx_main_v61 (ix2 t h : S2048x1024.Idx)) = ix1 t := funext fun a => Fin.ext (by match a with | ⟨0, _⟩ => rfl)
  rw [val_main_v62_apply, val_main_v61_apply, val_main_v60_apply, hw, proj2, wgt2]
  rfl

/-! ### Expert 3 -/

theorem pre3 (t : Fin 2048) (j : Fin 4096) : val_main_v72 (F := Ideal) x0 x3 (ix2 t j) = pre x0 x3 3 t j := by
  rw [val_main_v72_apply]
  unfold pre
  refine Finset.sum_congr rfl fun k _ => ?_
  rw [val_main_v71_apply, val_main_v70_apply, val_main_v69_apply]
  have hj := j.isLt
  have hk := k.isLt
  exact congr (congrArg (· * ·) (congrArg x0 (funext fun a => Fin.ext (by match a with | ⟨0, _⟩ => rfl | ⟨1, _⟩ => rfl))))
    (congrArg x3 (funext fun a => Fin.ext (by
      match a with
      | ⟨0, _⟩ => rfl
      | ⟨1, _⟩ => show (j.val * 1024 + k.val) / 1024 % 4096 = j.val; omega
      | ⟨2, _⟩ => show (j.val * 1024 + k.val) % 1024 = k.val; omega)))

theorem act3 (t : Fin 2048) (f : Fin 2048) : val_main_v76 (F := Ideal) x0 x3 (ix2 t f) = act x0 x3 3 t f := by
  have hlo : idx_main_v73 (ix2 t f : S2048x2048.Idx) = ix2 t (lo f) := funext fun a => Fin.ext (by
    match a with
    | ⟨0, _⟩ => first | rfl | exact Nat.zero_add _
    | ⟨1, _⟩ => first | rfl | exact Nat.zero_add _)
  have hhi : idx_main_v74 (ix2 t f : S2048x2048.Idx) = ix2 t (hi f) := funext fun a => Fin.ext (by
    match a with
    | ⟨0, _⟩ => first | rfl | exact Nat.zero_add _
    | ⟨1, _⟩ => first | rfl | exact Nat.add_comm _ _)
  rw [val_main_v76_apply, val_main_v75_apply, val_main_call3_v5_apply, val_main_call3_v4_apply, val_main_call3_cst_0_apply,
    val_main_call3_v3_apply, val_main_call3_v2_apply, val_main_call3_cst_apply, val_main_call3_v1_apply, val_main_call3_v0_apply,
    val_main_v73_apply, val_main_v74_apply, hlo, hhi, pre3, pre3]
  simp only [Ideal.mulf_def, Ideal.hostDivf_def, Ideal.addf_def, Ideal.hostUnary_exp_def, Ideal.hostNegf_def, Ideal.negf_def,
    Ideal.ofBits_def]
  unfold act
  rw [silu_expansion]

theorem proj3 (t : Fin 2048) (h : Fin 1024) : val_main_v80 (F := Ideal) x0 x3 x4 (ix2 t h) = proj x0 x3 x4 3 t h := by
  rw [val_main_v80_apply]
  unfold proj
  refine Finset.sum_congr rfl fun f _ => ?_
  have hl : lidx_main_v80 (ix2 t h : S2048x1024.Idx) f = ix2 t f := funext fun a => Fin.ext (by match a with | ⟨0, _⟩ => rfl | ⟨1, _⟩ => rfl)
  rw [hl, act3, val_main_v79_apply, val_main_v78_apply, val_main_v77_apply]
  have hh := h.isLt
  have hf := f.isLt
  exact congrArg (_ * ·) (congrArg x4 (funext fun a => Fin.ext (by
    match a with
    | ⟨0, _⟩ => rfl
    | ⟨1, _⟩ => show (h.val * 2048 + f.val) / 2048 % 1024 = h.val; omega
    | ⟨2, _⟩ => show (h.val * 2048 + f.val) % 2048 = f.val; omega)))

theorem wgt3 (t : Fin 2048) : val_main_v68 (F := Ideal) x1 x2 (ix1 t) = wgt x1 x2 3 t := by
  rw [val_main_v68_apply]
  unfold wgt
  refine congrArg₂ (· + ·) (by rfl) (Finset.sum_congr rfl fun k _ => ?_)
  have hi : idx_main_v68 (ix1 t : S2048.Idx) k = ix2 t k := funext fun a => Fin.ext (by match a with | ⟨0, _⟩ => rfl | ⟨1, _⟩ => rfl)
  rw [hi, val_main_v67_apply, val_main_v66_apply, val_main_v65_apply, val_main_v64_apply, val_main_c_5_apply]
  exact mul_uitofp_bit _ _

theorem contrib3 (t : Fin 2048) (h : Fin 1024) :
    val_main_v83 (F := Ideal) x0 x1 x2 x3 x4 (ix2 t h) = contrib x0 x1 x2 x3 x4 3 t h := by
  have hw : idx_main_v81 (idx_main_v82 (ix2 t h : S2048x1024.Idx)) = ix1 t := funext fun a => Fin.ext (by match a with | ⟨0, _⟩ => rfl)
  rw [val_main_v83_apply, val_main_v82_apply, val_main_v81_apply, hw, proj3, wgt3]
  rfl

/-! ### The four contributions added to the zero array -/

/-- The reference's result at token `t`, output feature `h`. -/
theorem result_apply (t : Fin 2048) (h : Fin 1024) :
    val_main_v84 (F := Ideal) x0 x1 x2 x3 x4 (ix2 t h) = out x0 x1 x2 x3 x4 t h := by
  rw [val_main_v84_apply, val_main_v63_apply, val_main_v42_apply, val_main_v21_apply, val_main_v0_apply,
    contrib0, contrib1, contrib2, contrib3]
  rfl

end Cert.ReferenceIdeal.RefValue

end
-- ==== Proof.lean ====
/-
  The routed mixture-of-experts layer over four local experts: a kernel that keeps the output block resident across a
  grid over the experts, and inside each expert loops over sixteen chunks of 128 tokens, against a reference that
  computes each expert's dense contribution and adds the four to a zero array.

  Over the extended reals both compute, for every token t and output feature h,
      (((0 + c₀) + c₁) + c₂) + c₃,   c_e = (∑_f silu(gate_e)[t, f] · up_e[t, f] · down_e[h, f]) · w_e[t],
  with the same order of the four additions. The kernel's side: the loop adds each chunk's contribution to the rows it
  loads back (Proof/LoopValue, Proof/CaseValue), a chunk's contribution read at an entry is the product above
  (Proof/Payload), the blocks are the argument arrays' slices, transposed (Proof/Blocks), and the resident block
  accumulates the four experts and is written back once (Proof/Chain). The reference's side is read one operation at a
  time (Proof/RefValue). The two routing weights differ in form only: the kernel selects the weight or zero by the
  comparison, the reference multiplies the weight by the comparison's bit; these agree on every extended real. No law
  that needs finiteness is used. The kernel's idealization rewrote nothing, so `preserves` is trivial; the three
  frames are the generated frames of the two kernel programs and the reference's run with its result dropped.
-/
import proofs.«159751_j8469675508185_1_alg».proof.Defs
import proofs.«159751_j8469675508185_1_alg».proof.Proof.Gen.Kernel
import proofs.«159751_j8469675508185_1_alg».proof.Proof.Gen.Kernel.Skeleton
import proofs.«159751_j8469675508185_1_alg».proof.Proof.Gen.Kernel.Loops
import proofs.«159751_j8469675508185_1_alg».proof.Proof.Gen.Kernel.Launch
import proofs.«159751_j8469675508185_1_alg».proof.Proof.Gen.Kernel.Points
import proofs.«159751_j8469675508185_1_alg».proof.Proof.Gen.Kernel.Frame
import proofs.«159751_j8469675508185_1_alg».proof.Proof.Gen.KernelIdeal
import proofs.«159751_j8469675508185_1_alg».proof.Proof.Gen.KernelIdeal.Skeleton
import proofs.«159751_j8469675508185_1_alg».proof.Proof.Gen.KernelIdeal.Loops
import proofs.«159751_j8469675508185_1_alg».proof.Proof.Gen.KernelIdeal.Launch
import proofs.«159751_j8469675508185_1_alg».proof.Proof.Gen.KernelIdeal.Points
import proofs.«159751_j8469675508185_1_alg».proof.Proof.Gen.KernelIdeal.Frame
import proofs.«159751_j8469675508185_1_alg».proof.Proof.Gen.ReferenceIdeal
import proofs.«159751_j8469675508185_1_alg».proof.Proof.Gen.Pre_finite_inputs
import proofs.«159751_j8469675508185_1_alg».proof.Proof.Gen.KernelIdeal.Value
import proofs.«159751_j8469675508185_1_alg».proof.Proof.Gen.ReferenceIdeal.Run
import proofs.«159751_j8469675508185_1_alg».proof.Proof.Gen.ReferenceIdeal.Read
import proofs.«159751_j8469675508185_1_alg».proof.Proof.Chain
import proofs.«159751_j8469675508185_1_alg».proof.Proof.RefValue
import Idealize.ShloMosaic.Adequacy
import Idealize.ShloMosaic.Init

noncomputable section

namespace Cert.Proof

open Idealize.ShloMosaic Idealize.SL.Sem Idealize.ShloMosaic.ValueIdx

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments the kernel's result array ends at the running sum over the four experts
    and the reference's at its composed term; entry by entry both are the specification. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Chain.result m c, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v84_eq]
  funext y
  obtain ⟨t, h, rfl⟩ : ∃ (t : Fin 2048) (h : Fin 1024), y = ix2 t h := ⟨y 0, y 1, eq_ix2 y⟩
  rw [Cert.ReferenceIdeal.RefValue.result_apply, (hagree c).1, (hagree c).2.1, (hagree c).2.2.1, (hagree c).2.2.2.1,
    (hagree c).2.2.2.2]
  exact (Cert.KernelIdeal.Chain.result_apply m c t h).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
